-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x300 : Shape := ⟨2, ![256, 300]⟩
abbrev S300 : Shape := ⟨1, ![300]⟩
abbrev S300x2 : Shape := ⟨2, ![300, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x300 : S_.BroadcastsInDim S256x300 (![] : Fin 0 → Fin S256x300.rank)
  reducesTo_S256x300_S_d0_1 : S256x300.ReducesTo [0, 1] S_
  bcast_S_S300 : S_.BroadcastsInDim S300 (![] : Fin 0 → Fin S300.rank)
  reducesTo_S300_S_d0 : S300.ReducesTo [0] S_
  bcast_S_S300x2 : S_.BroadcastsInDim S300x2 (![] : Fin 0 → Fin S300x2.rank)
  reducesTo_S300x2_S_d0_1 : S300x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S300x2 1) : IVec S_ 1 :=
  let main_c_5 : IVec S_ 1 := constantI S_ 1 1#1
  let main_v17 : IVec S_ 1 := (fun x v => Host.reduce IntOp.andi x v reducesTo_S300x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x300 .f32) (main_arg3 : FVec F S300 .f32) (main_arg4 : FVec F S300x2 .f32) (main_arg5 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x300 .f32 := Host.absf main_arg2
  let main_cst_0 : FVec F S_ .f32 := constant S_ .f32 0x7F800000#32
  let main_v5 : FVec F S256x300 .f32 := broadcastInDim S256x300 ![] bcast_S_S256x300 main_cst_0
  let main_v6 : IVec S256x300 1 := cmpf .olt main_v4 main_v5
  let main_c_1 : IVec S_ 1 := constantI S_ 1 1#1
  let main_v7 : IVec S_ 1 := (fun x v => Host.reduce IntOp.andi x v reducesTo_S256x300_S_d0_1 h_S_) main_v6 main_c_1
  let main_v8 : IVec S_ 1 := andi main_v3 main_v7
  let main_v9 : FVec F S300 .f32 := Host.absf main_arg3
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S300x2 .f32 := Host.absf main_arg4
  let main_cst_4 : FVec F S_ .f32 := constant S_ .f32 0x7F800000#32
  let main_v15 : FVec F S300x2 .f32 := broadcastInDim S300x2 ![] bcast_S_S300x2 main_cst_4
  let main_v16 : IVec S300x2 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x300 : Shape := ⟨2, ![256, 300]⟩
abbrev S300 : Shape := ⟨1, ![300]⟩
abbrev S300x2 : Shape := ⟨2, ![300, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x300 : Shape := ⟨2, ![50000, 300]⟩
abbrev S2000x256 : Shape := ⟨2, ![2000, 256]⟩
abbrev S2000x1 : Shape := ⟨2, ![2000, 1]⟩
abbrev S2000x300 : Shape := ⟨2, ![2000, 300]⟩
abbrev S850000x300 : Shape := ⟨2, ![850000, 300]⟩
abbrev S1x300 : Shape := ⟨2, ![1, 300]⟩
abbrev S1x2 : Shape := ⟨2, ![1, 2]⟩
abbrev S50000x2 : Shape := ⟨2, ![50000, 2]⟩
abbrev S2000x2 : Shape := ⟨2, ![2000, 2]⟩

abbrev nBuf : Space → Nat
  | .hbm => 49
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x300, .f32⟩
  | .hbm, ⟨3, _⟩ => ⟨S300, .f32⟩
  | .hbm, ⟨4, _⟩ => ⟨S300x2, .f32⟩
  | .hbm, ⟨5, _⟩ => ⟨S2, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x300, .bf16⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x300, .bf16⟩
  | .hbm, ⟨41, _⟩ => ⟨S850000x300, .f32⟩
  | .hbm, ⟨42, _⟩ => ⟨S_, .f32⟩
  | .hbm, ⟨43, _⟩ => ⟨S50000x300, .f32⟩
  | .hbm, ⟨44, _⟩ => ⟨S850000x1, .i32⟩
  | .hbm, ⟨45, _⟩ => ⟨S50000x300, .f32⟩
  | .hbm, ⟨46, _⟩ => ⟨S1x300, .f32⟩
  | .hbm, ⟨47, _⟩ => ⟨S1x2, .f32⟩
  | .hbm, ⟨48, _⟩ => ⟨S50000x2, .f32⟩
  | .local _ .vmem, ⟨0, _⟩ => ⟨S2000x256, .f32⟩
  | .local _ .vmem, ⟨1, _⟩ => ⟨S2000x256, .f32⟩
  | .local _ .vmem, ⟨2, _⟩ => ⟨S256x300, .f32⟩
  | .local _ .vmem, ⟨3, _⟩ => ⟨S2000x1, .f32⟩
  | .local _ .vmem, ⟨4, _⟩ => ⟨S2000x1, .f32⟩
  | .local _ .vmem, ⟨5, _⟩ => ⟨S2000x300, .bf16⟩
  | .local _ .vmem, ⟨6, _⟩ => ⟨S2000x300, .bf16⟩
  | .local _ .vmem, ⟨7, _⟩ => ⟨S2000x300, .f32⟩
  | .local _ .vmem, ⟨8, _⟩ => ⟨S2000x300, .f32⟩
  | .local _ .vmem, ⟨9, _⟩ => ⟨S2000x1, .f32⟩
  | .local _ .vmem, ⟨10, _⟩ => ⟨S2000x1, .f32⟩
  | .local _ .vmem, ⟨11, _⟩ => ⟨S1x300, .f32⟩
  | .local _ .vmem, ⟨12, _⟩ => ⟨S300x2, .f32⟩
  | .local _ .vmem, ⟨13, _⟩ => ⟨S1x2, .f32⟩
  | .local _ .vmem, ⟨14, _⟩ => ⟨S2000x2, .f32⟩
  | .local _ .vmem, ⟨15, _⟩ => ⟨S2000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x300 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S300x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x300_S256x300_0_0 : ∀ a, (![0, 0] : Fin 2 → Nat) a + S256x300.size a ≤ S256x300.size a
  h_S256x300 : 0 < S256x300.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x300 : S2000x1.Broadcasts S2000x300
  inb_S2000x300_S2000x300_0_0 : ∀ a, (![0, 0] : Fin 2 → Nat) a + S2000x300.size a ≤ S2000x300.size a
  h_S2000x300 : 0 < S2000x300.numel
  packedbf16_S2000x300_S2000x300_0_0 : (Rect.unit (s := S2000x300) ![0, 0] S2000x300.size inb_S2000x300_S2000x300_0_0).PackedRows (EltTy.packing .bf16)
  bcast_S_S50000x300 : S_.BroadcastsInDim S50000x300 (![] : Fin 0 → Fin S50000x300.rank)
  shapeCasts_S300_S1x300 : S300.ShapeCasts S1x300
  shapeCasts_S2_S1x2 : S2.ShapeCasts S1x2
  shapeCasts_S2000x300_S2000x300 : S2000x300.ShapeCasts S2000x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  inb_S300x2_S300x2_0_0 : ∀ a, (![0, 0] : Fin 2 → Nat) a + S300x2.size a ≤ S300x2.size a
  h_S300x2 : 0 < S300x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000_S850000x1_S850000_n_0_0_1_wf : ScatterDims.WF S50000 S850000x1 S850000 [] [0] [0] 1
  dot_S2000x256_S256x300_S2000x300_1_0_0_1_n_n_wf : DotDims.WF S2000x256 S256x300 S2000x300 [1] [0] [0] [1] [] []
  gather_S50000x300_S850000x1_S850000x300_1_0_n_n_0_1_1300_wf : GatherDims.WF S50000x300 S850000x1 S850000x300 [1] [0] [] [0] [] 1 ![1, 300]
  scatter_S50000x300_S850000x1_S850000x300_1_0_0_1_wf : ScatterDims.WF S50000x300 S850000x1 S850000x300 [1] [0] [0] 1
  dot_S2000x300_S300x2_S2000x2_1_0_0_1_n_n_wf : DotDims.WF S2000x300 S300x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x300.size a ≤ S256x300.size a
  hwx0_1 : ∀ i : grid0.Coords, EltTy.bits .f32 = 32 ∨ (Rect.block (s := S256x300) S256x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x300.size a ≤ S50000x300.size a
  hwx0_3 : ∀ i : grid0.Coords, EltTy.bits .bf16 = 32 ∨ (Rect.block (s := S50000x300) S2000x300.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S50000x300.size a
  hwx1_0 : ∀ i : grid1.Coords, EltTy.bits .f32 = 32 ∨ (Rect.block (s := S50000x300) S2000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x300.size a ≤ S1x300.size a
  hwx1_2 : ∀ i : grid1.Coords, EltTy.bits .f32 = 32 ∨ (Rect.block (s := S1x300) S1x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S300x2.size a ≤ S300x2.size a
  hwx1_3 : ∀ i : grid1.Coords, EltTy.bits .f32 = 32 ∨ (Rect.block (s := S300x2) S300x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x2.size a ≤ S50000x2.size a
  hwx1_5 : ∀ i : grid1.Coords, EltTy.bits .f32 = 32 ∨ (Rect.block (s := S50000x2) S2000x2.size (cc1_transform_5 i) (hinb1_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x256_S256x300_S2000x300_1_0_0_1_n_n : DotDims S2000x256 S256x300 S2000x300 where
  lhsContracting := [1]
  rhsContracting := [0]
  lhsNonContracting := [0]
  rhsNonContracting := [1]
  lhsBatch := []
  rhsBatch := []
  wf := dot_S2000x256_S256x300_S2000x300_1_0_0_1_n_n_wf
def gather_S50000x300_S850000x1_S850000x300_1_0_n_n_0_1_1300 : GatherDims S50000x300 S850000x1 S850000x300 where
  offsetDims := [1]
  collapsedSliceDims := [0]
  operandBatchingDims := []
  startIndicesBatchingDims := []
  startIndexMap := [0]
  indexVectorDim := 1
  sliceSizes := ![1, 300]
  wf := gather_S50000x300_S850000x1_S850000x300_1_0_n_n_0_1_1300_wf
def scatter_S50000x300_S850000x1_S850000x300_1_0_0_1 : ScatterDims S50000x300 S850000x1 S850000x300 where
  updateWindowDims := [1]
  insertedWindowDims := [0]
  scatterDimsToOperandDims := [0]
  indexVectorDim := 1
  wf := scatter_S50000x300_S850000x1_S850000x300_1_0_0_1_wf
def dot_S2000x300_S300x2_S2000x2_1_0_0_1_n_n : DotDims S2000x300 S300x2 S2000x2 where
  lhsContracting := [1]
  rhsContracting := [0]
  lhsNonContracting := [0]
  rhsNonContracting := [1]
  lhsBatch := []
  rhsBatch := []
  wf := dot_S2000x300_S300x2_S2000x2_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S300x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S2000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x300 : Shape := ⟨2, ![256, 300]⟩
abbrev S300 : Shape := ⟨1, ![300]⟩
abbrev S300x2 : Shape := ⟨2, ![300, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x300 : Shape := ⟨2, ![50000, 300]⟩
abbrev S850000x300 : Shape := ⟨2, ![850000, 300]⟩
abbrev S1x300 : Shape := ⟨2, ![1, 300]⟩
abbrev S50000x2 : Shape := ⟨2, ![50000, 2]⟩
abbrev S1x2 : Shape := ⟨2, ![1, 2]⟩

abbrev nBuf : Space → Nat
  | .hbm => 76
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x300, .f32⟩
  | .hbm, ⟨3, _⟩ => ⟨S300, .f32⟩
  | .hbm, ⟨4, _⟩ => ⟨S300x2, .f32⟩
  | .hbm, ⟨5, _⟩ => ⟨S2, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x300, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x300, .f32⟩
  | .hbm, ⟨59, _⟩ => ⟨S850000x1, .f32⟩
  | .hbm, ⟨60, _⟩ => ⟨S850000x300, .f32⟩
  | .hbm, ⟨61, _⟩ => ⟨S850000x300, .f32⟩
  | .hbm, ⟨62, _⟩ => ⟨S_, .f32⟩
  | .hbm, ⟨63, _⟩ => ⟨S50000x300, .f32⟩
  | .hbm, ⟨64, _⟩ => ⟨S850000x1, .i32⟩
  | .hbm, ⟨65, _⟩ => ⟨S50000x300, .f32⟩
  | .hbm, ⟨66, _⟩ => ⟨S1x300, .f32⟩
  | .hbm, ⟨67, _⟩ => ⟨S50000x300, .f32⟩
  | .hbm, ⟨68, _⟩ => ⟨S50000x300, .f32⟩
  | .hbm, ⟨69, _⟩ => ⟨S_, .f32⟩
  | .hbm, ⟨70, _⟩ => ⟨S50000x300, .f32⟩
  | .hbm, ⟨71, _⟩ => ⟨S50000x300, .f32⟩
  | .hbm, ⟨72, _⟩ => ⟨S50000x2, .f32⟩
  | .hbm, ⟨73, _⟩ => ⟨S1x2, .f32⟩
  | .hbm, ⟨74, _⟩ => ⟨S50000x2, .f32⟩
  | .hbm, ⟨75, _⟩ => ⟨S50000x2, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x300_0_1 : S850000x1.BroadcastsInDim S850000x300 (![0, 1] : Fin 2 → Fin S850000x300.rank)
  bcast_S_S50000x300 : S_.BroadcastsInDim S50000x300 (![] : Fin 0 → Fin S50000x300.rank)
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x300_S50000x300_1_0_0_1_n_n_wf : DotDims.WF S50000x256 S256x300 S50000x300 [1] [0] [0] [1] [] []
  gather_S50000x300_S850000x1_S850000x300_1_0_n_n_0_1_1300_wf : GatherDims.WF S50000x300 S850000x1 S850000x300 [1] [0] [] [0] [] 1 ![1, 300]
  scatter_S50000x300_S850000x1_S850000x300_1_0_0_1_wf : ScatterDims.WF S50000x300 S850000x1 S850000x300 [1] [0] [0] 1
  dot_S50000x300_S300x2_S50000x2_1_0_0_1_n_n_wf : DotDims.WF S50000x300 S300x2 S50000x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x300_S50000x300_1_0_0_1_n_n : DotDims S50000x256 S256x300 S50000x300 where
  lhsContracting := [1]
  rhsContracting := [0]
  lhsNonContracting := [0]
  rhsNonContracting := [1]
  lhsBatch := []
  rhsBatch := []
  wf := dot_S50000x256_S256x300_S50000x300_1_0_0_1_n_n_wf
def gather_S50000x300_S850000x1_S850000x300_1_0_n_n_0_1_1300 : GatherDims S50000x300 S850000x1 S850000x300 where
  offsetDims := [1]
  collapsedSliceDims := [0]
  operandBatchingDims := []
  startIndicesBatchingDims := []
  startIndexMap := [0]
  indexVectorDim := 1
  sliceSizes := ![1, 300]
  wf := gather_S50000x300_S850000x1_S850000x300_1_0_n_n_0_1_1300_wf
def scatter_S50000x300_S850000x1_S850000x300_1_0_0_1 : ScatterDims S50000x300 S850000x1 S850000x300 where
  updateWindowDims := [1]
  insertedWindowDims := [0]
  scatterDimsToOperandDims := [0]
  indexVectorDim := 1
  wf := scatter_S50000x300_S850000x1_S850000x300_1_0_0_1_wf
def dot_S50000x300_S300x2_S50000x2_1_0_0_1_n_n : DotDims S50000x300 S300x2 S50000x2 where
  lhsContracting := [1]
  rhsContracting := [0]
  lhsNonContracting := [0]
  rhsNonContracting := [1]
  lhsBatch := []
  rhsBatch := []
  wf := dot_S50000x300_S300x2_S50000x2_1_0_0_1_n_n_wf

class Facts : Prop extends Facts₀ where

variable [Facts]
-- ==== Proof.KRun.lean ====
/-
  THE IDEALIZED KERNEL'S RUN WITH ITS RESULT NAMED, at any float instance `F`. From any launch memory `m` with zero
  counters, every weakly fair execution of @main on the TensorCores terminates, nothing faulting, and in every final
  state the result array `main_v32` (the second pipelined region's output) holds what the fold of the buffer
  contents over the program's segments assigns it after the last region, `Gen.W6 m ρ c`, while each argument array
  is as launched (`run_named`).
  Then the two arrays the regions write, by name: the result is what region 1's write-backs leave of its window 5
  after the last grid point (`W6_result`), and the hidden array `main_v18` is what region 0's write-backs leave of
  its window 3 after the last grid point (`W4_hidden`).
-/
import proofs.«105829_j2448131359246_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the last region the result array holds what region 1's write-backs leave of its output window (window 5)
    once every grid point has run, from the contents `V5` the region was entered with. -/
theorem W6_result (c : Dev nD) :
    Gen.W6 m ρ c (Proc.devRef .tc main_v32) = (Gen.dat1 (Gen.V5 m ρ) c).arrAt 5 cfg1.N :=
  Gen.W6_arr m ρ c 5

/-- After the first region the hidden array holds what region 0's write-backs leave of its output window (window 3)
    once every grid point has run, from the contents `V3` the region was entered with. -/
theorem W4_hidden (c : Dev nD) :
    Gen.W4 m ρ c (Proc.devRef .tc main_v18) = (Gen.dat0 (Gen.V3 m ρ) c).arrAt 3 cfg0.N :=
  Gen.W4_arr m ρ c 3

set_option backward.isDefEq.respectTransparency.types false in
/-- THE RUN WITH ITS RESULT NAMED: at the compiled mesh, from any memory with zero counters, every weakly fair
    execution of @main on the TensorCores terminates, nothing faulting, and every final state has the result array
    `main_v32` at the last boundary's contents `Gen.W6 m ρ c` and the argument arrays as launched. Every unscoped
    buffer of the final state is read at the last boundary's contents; the result is one of them, and each argument
    is read back through the fold to its launch contents. -/
theorem run_named : θ_run defs (onTc (τ := τ) (main (F := F))) ⟨m, fun _ => 0, ρ⟩ (fun r => ∀ c : Dev nD,
      r.2.mem ((c.tc : Thread nD τ).loc main_v32) = Gen.W6 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W6 m ρ c) s')
      isplitl [Hh] <;> iassumption)
    (hQ := fun s h c =>
      ⟨h c _ (Gen.mem_uc main_v32 (by decide)),
       (h c _ (Gen.mem_uc main_arg0 (by decide))).trans (Gen.W6_main_arg0 m ρ c),
       (h c _ (Gen.mem_uc main_arg1 (by decide))).trans (Gen.W6_main_arg1 m ρ c),
       (h c _ (Gen.mem_uc main_arg2 (by decide))).trans (Gen.W6_main_arg2 m ρ c),
       (h c _ (Gen.mem_uc main_arg3 (by decide))).trans (Gen.W6_main_arg3 m ρ c),
       (h c _ (Gen.mem_uc main_arg4 (by decide))).trans (Gen.W6_main_arg4 m ρ c),
       (h c _ (Gen.mem_uc main_arg5 (by decide))).trans (Gen.W6_main_arg5 m ρ c)⟩)

end Cert.KernelIdeal.RunValue

end
-- ==== Proof.KHost.lean ====
/-
  The idealized kernel's host stretches read back: what each buffer the two launches read holds when its launch is
  entered, as a function of the launch memory. Before the first launch: the node scale dis (the inverse square root of
  the degree, or 0), as a column. Between the launches: the rows of the first launch's result gathered at the source
  words and added into the rows the destination words land on; the two bias vectors as one-row matrices.
-/
import proofs.«105829_j2448131359246_2_alg».proof.Proof.Gen.KernelIdeal.Frame
import Idealize.ShloMosaic.Lib.StableHlo.Run

noncomputable section

namespace Cert.KernelIdeal.HostValue

open Cert.KernelIdeal Cert.KernelIdeal.Facts₀ Cert.KernelIdeal.Facts Idealize.ShloMosaic Idealize.ShloMosaic.TcCoe Idealize.SL.Sem Idealize.ShloMosaic.StableHlo

variable {F : FTy → Type} [FloatOps F]

/-- Row 0 of the edge list followed by the self loops. -/
def srcW (ei : (⟨S2x800000, .i32⟩ : BufTy).Contents (Elt F)) : (⟨S850000, .i32⟩ : BufTy).Contents (Elt F) :=
  concatenate S850000 0 [⟨S800000, shapeCast _ (extractStridedSlice S1x800000 ![0, 0] ei slices_S2x800000_S1x800000_0_0) shapeCasts_S1x800000_S800000⟩,
    ⟨S50000, iotaInDim S50000 32 0⟩] concatenates_S800000_S50000_S850000_d0

/-- Row 1 of the edge list followed by the self loops. -/
def dstW (ei : (⟨S2x800000, .i32⟩ : BufTy).Contents (Elt F)) : (⟨S850000, .i32⟩ : BufTy).Contents (Elt F) :=
  concatenate S850000 0 [⟨S800000, shapeCast _ (extractStridedSlice S1x800000 ![1, 0] ei slices_S2x800000_S1x800000_1_0) shapeCasts_S1x800000_S800000⟩,
    ⟨S50000, iotaInDim S50000 32 0⟩] concatenates_S800000_S50000_S850000_d0

/-- The index words as a column. -/
def col (v : (⟨S850000, .i32⟩ : BufTy).Contents (Elt F)) : (⟨S850000x1, .i32⟩ : BufTy).Contents (Elt F) :=
  broadcastInDim S850000x1 ![0] bcast_S850000_S850000x1_0 v

/-- The number of dst words landing on each node. -/
def deg (ei : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant (F := F) S_ .f32 0x00000000#32))
    (col (F := F) (dstW (F := F) ei))
    (broadcastInDim S850000 ![] bcast_S_S850000 (constant (F := F) S_ .f32 0x3F800000#32))

/-- deg^(-1/2) where deg > 0, else 0. -/
def dis (ei : (⟨S2x800000, .i32⟩ : BufTy).Contents (Elt F)) : (⟨S50000, .f32⟩ : BufTy).Contents (Elt F) :=
  select (cmpf .ogt (deg (F := F) ei) (broadcastInDim S50000 ![] bcast_S_S50000 (constant (F := F) S_ .f32 0x00000000#32)))
    (Host.rsqrt (maximumf (deg (F := F) ei) (broadcastInDim S50000 ![] bcast_S_S50000 (constant (F := F) S_ .f32 0x3F800000#32))))
    (broadcastInDim S50000 ![] bcast_S_S50000 (id (constant (F := F) S_ .f32 0x00000000#32)))

/-- The index words as a gather reads them: 50000 added to a negative word; in a column. -/
def nrm (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The rows of `h` at the source words, added into the rows the destination words land on. -/
def gathered (ei : (⟨S2x800000, .i32⟩ : BufTy).Contents (Elt F)) (h : (⟨S50000x300, .bf16⟩ : BufTy).Contents (Elt F)) :
    (⟨S50000x300, .f32⟩ : BufTy).Contents (Elt F) :=
  Host.scatterAdd scatter_S50000x300_S850000x1_S850000x300_1_0_0_1
    (broadcastInDim S50000x300 ![] bcast_S_S50000x300 (constant (F := F) S_ .f32 0x00000000#32))
    (col (F := F) (dstW (F := F) ei))
    (extf .f32 (Host.gather gather_S50000x300_S850000x1_S850000x300_1_0_n_n_0_1_1300 h (nrm (F := F) (srcW (F := F) ei))) bitsLt_bf16_f32)

variable (m : (ℓ : Loc nD τ sig) → Buf (Elt F) ℓ) (ρ : Dev nD → PrngReg)

set_option maxRecDepth 8192 in
set_option maxHeartbeats 4000000 in
/-- When the first launch is entered the scale column holds dis, a column. -/
theorem entry0_scale (c : Dev nD) :
    Gen.V3 m ρ c main_v17 = shapeCast _ (dis (F := F) (m ((c.tc : Thread nD τ).loc main_arg1))) shapeCasts_S50000_S50000x1 := by
  show StableHlo.after Gen.hostOps0_2 (StableHlo.after Gen.hostOps0_1 (StableHlo.after Gen.hostOps0 (Gen.W0 m ρ c))) (Proc.devRef .tc main_v17) = _
  after_results_simp <;> rfl

set_option maxRecDepth 8192 in
set_option maxHeartbeats 4000000 in
/-- When the first launch is entered the features and the first weight matrix are as launched. -/
theorem entry0_x (c : Dev nD) : Gen.V3 m ρ c main_arg0 = m ((c.tc : Thread nD τ).loc main_arg0) := by
  show StableHlo.after Gen.hostOps0_2 (StableHlo.after Gen.hostOps0_1 (StableHlo.after Gen.hostOps0 (Gen.W0 m ρ c))) (Proc.devRef .tc main_arg0) = _
  after_results_simp <;> rfl

set_option maxRecDepth 8192 in
set_option maxHeartbeats 4000000 in
theorem entry0_w (c : Dev nD) : Gen.V3 m ρ c main_arg2 = m ((c.tc : Thread nD τ).loc main_arg2) := by
  show StableHlo.after Gen.hostOps0_2 (StableHlo.after Gen.hostOps0_1 (StableHlo.after Gen.hostOps0 (Gen.W0 m ρ c))) (Proc.devRef .tc main_arg2) = _
  after_results_simp <;> rfl

set_option maxRecDepth 8192 in
set_option maxHeartbeats 4000000 in
/-- The source words are still in their buffer after the first launch. -/
theorem mid_src (c : Dev nD) : Gen.W4 m ρ c (Proc.devRef .tc main_v3) = srcW (F := F) (m ((c.tc : Thread nD τ).loc main_arg1)) := by
  rw [Gen.W4_of_ne m ρ c main_v3 (by decide)]
  show StableHlo.after Gen.hostOps0_2 (StableHlo.after Gen.hostOps0_1 (StableHlo.after Gen.hostOps0 (Gen.W0 m ρ c))) (Proc.devRef .tc main_v3) = _
  after_results_simp <;> rfl

set_option maxRecDepth 8192 in
set_option maxHeartbeats 4000000 in
/-- So are the destination words. -/
theorem mid_dst (c : Dev nD) : Gen.W4 m ρ c (Proc.devRef .tc main_v6) = dstW (F := F) (m ((c.tc : Thread nD τ).loc main_arg1)) := by
  rw [Gen.W4_of_ne m ρ c main_v6 (by decide)]
  show StableHlo.after Gen.hostOps0_2 (StableHlo.after Gen.hostOps0_1 (StableHlo.after Gen.hostOps0 (Gen.W0 m ρ c))) (Proc.devRef .tc main_v6) = _
  after_results_simp <;> rfl

set_option maxRecDepth 8192 in
set_option maxHeartbeats 4000000 in
/-- The scale column is an input of the first launch: it leaves it as it entered. -/
theorem mid_scale (c : Dev nD) :
    Gen.W4 m ρ c (Proc.devRef .tc main_v17) = shapeCast _ (dis (F := F) (m ((c.tc : Thread nD τ).loc main_arg1))) shapeCasts_S50000_S50000x1 :=
  ((Gen.W4_arr m ρ c 2).trans (((Gen.dat0 (Gen.V3 m ρ) c).arrAt_in 2 rfl _).trans (Gen.A_eq0 (Gen.V3 m ρ) c 2))).trans (entry0_scale m ρ c)

set_option maxRecDepth 8192 in
set_option maxHeartbeats 4000000 in
/-- The arguments the second launch reads are as launched after the first. -/
theorem mid_args (c : Dev nD) :
    Gen.W4 m ρ c (Proc.devRef .tc main_arg3) = m ((c.tc : Thread nD τ).loc main_arg3)
    ∧ Gen.W4 m ρ c (Proc.devRef .tc main_arg4) = m ((c.tc : Thread nD τ).loc main_arg4)
    ∧ Gen.W4 m ρ c (Proc.devRef .tc main_arg5) = m ((c.tc : Thread nD τ).loc main_arg5) := by
  refine ⟨?_, ?_, ?_⟩
  · rw [Gen.W4_of_ne m ρ c main_arg3 (by decide)]
    show StableHlo.after Gen.hostOps0_2 (StableHlo.after Gen.hostOps0_1 (StableHlo.after Gen.hostOps0 (Gen.W0 m ρ c))) (Proc.devRef .tc main_arg3) = _
    after_results_simp <;> rfl
  · rw [Gen.W4_of_ne m ρ c main_arg4 (by decide)]
    show StableHlo.after Gen.hostOps0_2 (StableHlo.after Gen.hostOps0_1 (StableHlo.after Gen.hostOps0 (Gen.W0 m ρ c))) (Proc.devRef .tc main_arg4) = _
    after_results_simp <;> rfl
  · rw [Gen.W4_of_ne m ρ c main_arg5 (by decide)]
    show StableHlo.after Gen.hostOps0_2 (StableHlo.after Gen.hostOps0_1 (StableHlo.after Gen.hostOps0 (Gen.W0 m ρ c))) (Proc.devRef .tc main_arg5) = _
    after_results_simp <;> rfl

set_option maxRecDepth 8192 in
set_option maxHeartbeats 4000000 in
/-- When the second launch is entered its first operand holds the gathered rows of the first launch's result, added
    into the rows the destination words land on. -/
theorem entry1_agg (c : Dev nD) :
    Gen.V5 m ρ c main_v29 = gathered (F := F) (m ((c.tc : Thread nD τ).loc main_arg1)) (Gen.W4 m ρ c (Proc.devRef .tc main_v18)) := by
  show StableHlo.after Gen.hostOps1 (Gen.W4 m ρ c) (Proc.devRef .tc main_v29) = _
  after_results_simp
  rw [mid_src m ρ c, mid_dst m ρ c]
  rfl

set_option maxRecDepth 8192 in
set_option maxHeartbeats 4000000 in
/-- … its other operands: the scale column, the two bias vectors as one-row matrices, the second weight matrix. -/
theorem entry1_rest (c : Dev nD) :
    Gen.V5 m ρ c main_v17 = shapeCast _ (dis (F := F) (m ((c.tc : Thread nD τ).loc main_arg1))) shapeCasts_S50000_S50000x1
    ∧ Gen.V5 m ρ c main_v30 = shapeCast _ (m ((c.tc : Thread nD τ).loc main_arg3)) shapeCasts_S300_S1x300
    ∧ Gen.V5 m ρ c main_arg4 = m ((c.tc : Thread nD τ).loc main_arg4)
    ∧ Gen.V5 m ρ c main_v31 = shapeCast _ (m ((c.tc : Thread nD τ).loc main_arg5)) shapeCasts_S2_S1x2 := by
  refine ⟨?_, ?_, ?_, ?_⟩
  · show StableHlo.after Gen.hostOps1 (Gen.W4 m ρ c) (Proc.devRef .tc main_v17) = _
    after_results_simp
    exact mid_scale m ρ c
  · show StableHlo.after Gen.hostOps1 (Gen.W4 m ρ c) (Proc.devRef .tc main_v30) = _
    after_results_simp
    rw [(mid_args m ρ c).1]
    rfl
  · show StableHlo.after Gen.hostOps1 (Gen.W4 m ρ c) (Proc.devRef .tc main_arg4) = _
    after_results_simp
    exact (mid_args m ρ c).2.1
  · show StableHlo.after Gen.hostOps1 (Gen.W4 m ρ c) (Proc.devRef .tc main_v31) = _
    after_results_simp
    rw [(mid_args m ρ c).2.2]
    rfl

end Cert.KernelIdeal.HostValue

end
-- ==== Proof.KRegion0.lean ====
/- The result array of the first region, in closed form at the ideal values. The region's body multiplies a block of
   2000 rows of the features by the whole 256×300 weight matrix and scales each row by that row's factor; the grid's 25
   points cover the 50000 rows block by block. So after the region the result array holds, at row `r` and column `q`,
   `(∑ₖ x[r, k] · w[k, q]) · d[r]` (`hidden`), whatever the arrays held when the region was entered: the payload is read
   at an index (the changes of float format are the identity on the extended reals, the product into a zero accumulator is
   the plain sum), each input block is read as rows of its array, and the blocks tile the result. -/
import proofs.«105829_j2448131359246_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The zero offsets of a whole-buffer rectangle, spelt as a constant function. -/
theorem zero_offsets : (![0, 0] : Fin 2 → Nat) = fun _ => 0 := funext fun a => by fin_cases a <;> rfl

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product of a 2000×256 block by the 256×300 weight into a zero accumulator, read at `(p, q)`: the sum over
    the contracted coordinate of the products of the entries. -/
theorem matmul_block_apply (A : FVec Ideal S2000x256 .bf16) (B : FVec Ideal S256x300 .bf16) (p : Fin 2000) (q : Fin 300) :
    matmul dot_S2000x256_S256x300_S2000x300_1_0_0_1_n_n none A B (constant S2000x300 .f32 0x00000000#32) (ix2 p q)
      = ∑ k : Fin 256, A (ix2 p k) * B (ix2 k q) := by
  show FloatOps.matmul _ none A B (constant S2000x300 .f32 0x00000000#32) (ix2 p q) = _
  rw [Ideal.matmul_constant_zero_apply,
    ← Equiv.sum_comp (contrEquiv1 dot_S2000x256_S256x300_S2000x300_1_0_0_1_n_n 256 rfl rfl).symm]
  refine Finset.sum_congr rfl fun c _ => ?_
  have c2 := contrEquiv1_symm_val dot_S2000x256_S256x300_S2000x300_1_0_0_1_n_n 256 rfl rfl c
  have l2 : dot_S2000x256_S256x300_S2000x300_1_0_0_1_n_n.lhsIdx (ix2 p q) ((contrEquiv1 _ 256 rfl rfl).symm c) = ix2 p c := by
    funext ax; apply Fin.ext
    match ax with
    | ⟨0, _⟩ => simp [DotDims.lhsIdx, dot_S2000x256_S256x300_S2000x300_1_0_0_1_n_n]; rfl
    | ⟨1, _⟩ => simp [DotDims.lhsIdx, dot_S2000x256_S256x300_S2000x300_1_0_0_1_n_n]; exact c2
  have r2 : dot_S2000x256_S256x300_S2000x300_1_0_0_1_n_n.rhsIdx (ix2 p q) ((contrEquiv1 _ 256 rfl rfl).symm c) = ix2 c q := by
    funext ax; apply Fin.ext
    match ax with
    | ⟨0, _⟩ => simp [DotDims.rhsIdx, dot_S2000x256_S256x300_S2000x300_1_0_0_1_n_n]; exact c2
    | ⟨1, _⟩ => simp [DotDims.rhsIdx, dot_S2000x256_S256x300_S2000x300_1_0_0_1_n_n]; rfl
  rw [l2, r2]

/-- The body's payload at `(p, q)`: row `p` of the loaded block times column `q` of the weight, scaled by the row's
    factor. The changes of float format are the identity on the extended reals. -/
theorem payload0_apply (x0 : Vec Ideal S2000x256 .f32) (x2 : Vec Ideal S256x300 .f32) (x5 : Vec Ideal S2000x1 .f32)
    (p : Fin 2000) (q : Fin 300) :
    k0_pay1 (F := Ideal) x0 x2 x5 (ix2 p q) = (∑ k : Fin 256, x0 (ix2 p k) * x2 (ix2 k q)) * x5 (ix2 p (0 : Fin 1)) := by
  unfold k0_pay1
  simp only [shapeCast_self]
  rw [truncf_apply, mulf_apply, matmul_block_apply, broadcastTo_a1_ab_apply]
  rfl

/-! ## Region 0: the scaled hidden layer -/

section Region0

variable (V : (c : Dev nD) → (b : Ref sig .tc) → Buf (Elt Ideal) ((c : Thread nD τ).loc b))

/-- Row `r` of the features times the weight matrix, scaled by the row's factor `d r`: entry `(r, q)` is
    `(∑ₖ x[r, k] · w[k, q]) · d[r]`. -/
def hidden (x : S50000x256.Idx → EReal) (w : S256x300.Idx → EReal) (d : S50000x1.Idx → EReal) : S50000x300.Idx → EReal :=
  fun i => (∑ k : Fin 256, x (ix2 (i 0) k) * w (ix2 k (i 1))) * d (ix2 (i 0) (0 : Fin 1))

/-- The index maps over the 25 grid points: the row windows (features, factors, result) sit at row block `t`, the weight
    window at its one block. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The features' block at point `t` is rows `2000 t … 2000 t + 1999` of the array. -/
theorem features_block_apply (c : Dev nD) (t : Fin cfg0.N) (y : S2000x256.Idx) (i : S50000x256.Idx)
    (h0 : (i 0).val = 2000 * t.val + (y 0).val) (h1 : (i 1).val = (y 1).val) :
    (iblk0 V c 0 t : Vec Ideal S2000x256 .f32) y = (V c main_arg0 : S50000x256.Idx → EReal) i := by
  obtain ⟨e0, e1, -⟩ := index_facts0 t
  show (V c main_arg0 : S50000x256.Idx → EReal) (((cfg0.win 0).blk t).view.emb y) = _
  refine congrArg (V c main_arg0 : S50000x256.Idx → EReal) (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 256 + 1 * (y 1).val = (i 1).val; rw [e1, h1]; omega

/-- The weight's block at every point is the whole matrix. -/
theorem weight_block_apply (c : Dev nD) (t : Fin cfg0.N) (y : S256x300.Idx) :
    (iblk0 V c 1 t : Vec Ideal S256x300 .f32) y = (V c main_arg2 : S256x300.Idx → EReal) y := by
  obtain ⟨-, -, e0, e1, -⟩ := index_facts0 t
  show (V c main_arg2 : S256x300.Idx → EReal) (((cfg0.win 1).blk t).view.emb y) = _
  refine congrArg (V c main_arg2 : S256x300.Idx → EReal) (funext fun a => Fin.ext ?_)
  match a with
  | ⟨0, _⟩ => show win0_1.index t (0 : Fin 2) * 256 + 1 * (y 0).val = (y 0).val; rw [e0]; omega
  | ⟨1, _⟩ => show win0_1.index t (1 : Fin 2) * 300 + 1 * (y 1).val = (y 1).val; rw [e1]; omega

/-- The factors' block at point `t` is rows `2000 t … 2000 t + 1999` of the column. -/
theorem factors_block_apply (c : Dev nD) (t : Fin cfg0.N) (y : S2000x1.Idx) (i : S50000x1.Idx)
    (h0 : (i 0).val = 2000 * t.val + (y 0).val) (h1 : (i 1).val = (y 1).val) :
    (iblk0 V c 2 t : Vec Ideal S2000x1 .f32) y = (V c main_v17 : S50000x1.Idx → EReal) i := by
  obtain ⟨-, -, -, -, e0, e1, -⟩ := index_facts0 t
  show (V c main_v17 : S50000x1.Idx → EReal) (((cfg0.win 2).blk t).view.emb y) = _
  refine congrArg (V c main_v17 : S50000x1.Idx → EReal) (funext fun a => Fin.ext ?_)
  match a with
  | ⟨0, _⟩ => show win0_2.index t (0 : Fin 2) * 2000 + 1 * (y 0).val = (i 0).val; rw [e0, h0]; omega
  | ⟨1, _⟩ => show win0_2.index t (1 : Fin 2) * 1 + 1 * (y 1).val = (i 1).val; rw [e1, h1]; omega

/-- What the body computes at `(p, q)` of point `t`'s block is `hidden` at row `2000 t + p`, column `q`. -/
theorem point0_apply (c : Dev nD) (t : Fin cfg0.N) (p : Fin 2000) (q : Fin 300) (i : S50000x300.Idx)
    (h0 : (i 0).val = 2000 * t.val + p.val) (h1 : (i 1).val = q.val) :
    k0_pay1 (F := Ideal) (iblk0 V c 0 t) (iblk0 V c 1 t) (iblk0 V c 2 t) (ix2 p q)
      = hidden (V c main_arg0) (V c main_arg2) (V c main_v17) i := by
  refine (payload0_apply _ _ _ p q).trans ?_
  have hq : i 1 = q := Fin.ext h1
  unfold hidden
  rw [hq]
  refine congrArg₂ (· * ·) (Finset.sum_congr rfl fun k _ => congrArg₂ (· * ·) ?_ ?_) ?_
  · exact features_block_apply V c t (ix2 p k) (ix2 (i 0) k) h0 rfl
  · exact weight_block_apply V c t (ix2 k q)
  · exact factors_block_apply V c t (ix2 p (0 : Fin 1)) (ix2 (i 0) (0 : Fin 1)) h0 rfl

/-- What point `t` writes back is block `t` of `hidden` of the arrays as the region finds them. -/
theorem flushed0_eq (c : Dev nD) (t : Fin cfg0.N) :
    (dat0 (F := Ideal) V c).flushed 3 t
      = ((cfg0.win 3).blk t).view.read (Elt Ideal) (hidden (V c main_arg0) (V c main_arg2) (V c main_v17)) := by
  show (cfg0.win 3).cut (grid0.coords t) ((dat0 V c).after 3 t) = _
  rw [after0_3]
  unfold out0_3
  rw [View.canon_unit_zero zero_offsets]
  simp only [View.ld_unit_zero (S := S2000x256) zero_offsets, View.ld_unit_zero (S := S256x300) zero_offsets,
    View.ld_unit_zero (S := S2000x1) zero_offsets]
  obtain ⟨-, -, -, -, -, -, e0, e1⟩ := index_facts0 t
  funext j
  obtain ⟨p, q, rfl⟩ : ∃ (p : Fin 2000) (q : Fin 300), j = ix2 p q := ⟨j 0, j 1, eq_ix2 j⟩
  show k0_pay1 (F := Ideal) (iblk0 V c 0 t) (iblk0 V c 1 t) (iblk0 V c 2 t) (ix2 p q)
    = hidden (V c main_arg0) (V c main_arg2) (V c main_v17) (((cfg0.win 3).blk t).view.emb (ix2 p q))
  refine point0_apply V c t p q _ ?_ ?_
  · show win0_3.index t (0 : Fin 2) * 2000 + 1 * p.val = _; rw [e0]; omega
  · show win0_3.index t (1 : Fin 2) * 300 + 1 * q.val = _; rw [e1]; omega

/-- An index of the result array is in point `t`'s block iff each coordinate is in the block's range on its axis. -/
theorem mem_block0 (t : Fin cfg0.N) (i : S50000x300.Idx) :
    i ∈ ((cfg0.win 3).blk t).view.set ↔ ∀ a : Fin 2, win0_3.index t a * S2000x300.size a ≤ (i a).val
      ∧ (i a).val < win0_3.index t a * S2000x300.size a + S2000x300.size a := by
  show i ∈ ((View.whole main_v18).slice (win0_3.rect t)).set ↔ _
  rw [View.set_slice_whole, Rect.mem_set_unit]
  exact Iff.rfl

/-- Every row of the result is in the block of the point `row / 2000`. -/
theorem cover0 (i : S50000x300.Idx) : ∃ t : Fin cfg0.N, (cfg0.win 3).flush t = true ∧ i ∈ ((cfg0.win 3).blk t).view.set := by
  have hi0 : (i 0).val < 50000 := (i 0).isLt
  have hi1 : (i 1).val < 300 := (i 1).isLt
  have hN : cfg0.N = 25 := N_0
  let t : Fin cfg0.N := ⟨(i 0).val / 2000, by rw [hN]; omega⟩
  obtain ⟨-, -, -, -, -, -, e0, e1⟩ := index_facts0 t
  have ht : t.val = (i 0).val / 2000 := rfl
  refine ⟨t, flush0_3 t, ?_⟩
  rw [mem_block0]
  intro a
  match a with
  | ⟨0, _⟩ => show win0_3.index t (0 : Fin 2) * 2000 ≤ (i 0).val ∧ (i 0).val < win0_3.index t (0 : Fin 2) * 2000 + 2000; rw [e0, ht]; omega
  | ⟨1, _⟩ => show win0_3.index t (1 : Fin 2) * 300 ≤ (i 1).val ∧ (i 1).val < win0_3.index t (1 : Fin 2) * 300 + 300; rw [e1]; omega

/-- THE RESULT ARRAY OF REGION 0 after its 25 points: `hidden` of the features, the weight and the row factors as the
    region finds them. -/
theorem region0_final (c : Dev nD) :
    (dat0 (F := Ideal) V c).arrAt 3 cfg0.N = hidden (V c main_arg0) (V c main_arg2) (V c main_v17) :=
  (dat0 (F := Ideal) V c).arrAt_eq_of_cover 3 (hidden (V c main_arg0) (V c main_arg2) (V c main_v17))
    (fun t _ => flushed0_eq V c t) cover0

end Region0

end Cert.KernelIdeal.RegionValue

end
-- ==== Proof.KRegion1.lean ====
/- The result array of the second region, in closed form at the ideal values. The region's body takes a block of 2000
   rows of the aggregate, scales each row by that row's factor, adds the bias row, cuts negative entries to zero, multiplies
   by the whole 300×2 weight matrix and adds the output bias; the grid's 25 points cover the 50000 rows block by block. So
   after the region the result array holds, at row `r` and column `q`, `(∑ₖ max (a[r, k] · d[r] + b[k]) 0 · wf[k, q]) + bf[q]`
   (`scores`), whatever the arrays held when the region was entered: the payload is read at an index (the changes of float
   format are the identity on the extended reals, the product into a zero accumulator is the plain sum), each input block is
   read as rows of its array or as the whole of it, and the blocks tile the result. -/
import proofs.«105829_j2448131359246_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The zero offsets of a whole-buffer rectangle, spelt as a constant function. -/
theorem whole_offsets : (![0, 0] : Fin 2 → Nat) = fun _ => 0 := funext fun a => by fin_cases a <;> rfl

/-- A column `[a, 1]` broadcast to `[a, b]` reads, at `(p, c)`, the column's entry of row `p`. -/
theorem column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product of a 2000×300 block by the 300×2 weight into a zero accumulator, read at `(p, q)`: the sum over
    the contracted coordinate of the products of the entries. -/
theorem matmul_scores_apply (A : FVec Ideal S2000x300 .bf16) (B : FVec Ideal S300x2 .bf16) (p : Fin 2000) (q : Fin 2) :
    matmul dot_S2000x300_S300x2_S2000x2_1_0_0_1_n_n none A B (constant S2000x2 .f32 0x00000000#32) (ix2 p q)
      = ∑ k : Fin 300, A (ix2 p k) * B (ix2 k q) := by
  show FloatOps.matmul _ none A B (constant S2000x2 .f32 0x00000000#32) (ix2 p q) = _
  rw [Ideal.matmul_constant_zero_apply,
    ← Equiv.sum_comp (contrEquiv1 dot_S2000x300_S300x2_S2000x2_1_0_0_1_n_n 300 rfl rfl).symm]
  refine Finset.sum_congr rfl fun c _ => ?_
  have c2 := contrEquiv1_symm_val dot_S2000x300_S300x2_S2000x2_1_0_0_1_n_n 300 rfl rfl c
  have l2 : dot_S2000x300_S300x2_S2000x2_1_0_0_1_n_n.lhsIdx (ix2 p q) ((contrEquiv1 _ 300 rfl rfl).symm c) = ix2 p c := by
    funext ax; apply Fin.ext
    match ax with
    | ⟨0, _⟩ => simp [DotDims.lhsIdx, dot_S2000x300_S300x2_S2000x2_1_0_0_1_n_n]; rfl
    | ⟨1, _⟩ => simp [DotDims.lhsIdx, dot_S2000x300_S300x2_S2000x2_1_0_0_1_n_n]; exact c2
  have r2 : dot_S2000x300_S300x2_S2000x2_1_0_0_1_n_n.rhsIdx (ix2 p q) ((contrEquiv1 _ 300 rfl rfl).symm c) = ix2 c q := by
    funext ax; apply Fin.ext
    match ax with
    | ⟨0, _⟩ => simp [DotDims.rhsIdx, dot_S2000x300_S300x2_S2000x2_1_0_0_1_n_n]; exact c2
    | ⟨1, _⟩ => simp [DotDims.rhsIdx, dot_S2000x300_S300x2_S2000x2_1_0_0_1_n_n]; rfl
  rw [l2, r2]

/-- The body's payload at `(p, q)`: row `p` of the aggregate scaled by the row's factor, the bias added, negative
    entries cut to zero, then that row times column `q` of the weight plus the output bias. The changes of float format
    are the identity on the extended reals. -/
theorem payload1_apply (x0 : Vec Ideal S2000x300 .f32) (x2 : Vec Ideal S2000x1 .f32) (x6 : Vec Ideal S1x300 .f32)
    (x13 : Vec Ideal S300x2 .f32) (x16 : Vec Ideal S1x2 .f32) (p : Fin 2000) (q : Fin 2) :
    k1_pay1 (F := Ideal) x0 x2 x6 x13 x16 (ix2 p q)
      = (∑ k : Fin 300, max (x0 (ix2 p k) * x2 (ix2 p (0 : Fin 1)) + x6 (ix2 (0 : Fin 1) k)) (Ideal.ofBits .f32 0x00000000#32)
            * x13 (ix2 k q)) + x16 (ix2 (0 : Fin 1) q) := by
  unfold k1_pay1
  simp only [shapeCast_self]
  rw [addf_apply, matmul_scores_apply, broadcastTo_1b_ab_apply]
  refine congrArg (· + _) (Finset.sum_congr rfl fun k _ => ?_)
  rw [truncf_apply, truncf_apply, maximumf_apply, addf_apply, mulf_apply, column_broadcast_apply, broadcastTo_1b_ab_apply]
  rfl

/-! ## Region 1: the scores -/

section Region1

variable (V : (c : Dev nD) → (b : Ref sig .tc) → Buf (Elt Ideal) ((c : Thread nD τ).loc b))

/-- Row `r` of the aggregate scaled by the row's factor `d r`, the bias `b` added, negative entries cut to zero, times
    the weight matrix, plus the output bias: entry `(r, q)` is `(∑ₖ max (a[r, k] · d[r] + b[k]) 0 · wf[k, q]) + bf[q]`. -/
def scores (a : S50000x300.Idx → EReal) (d : S50000x1.Idx → EReal) (b : S1x300.Idx → EReal) (wf : S300x2.Idx → EReal)
    (bf : S1x2.Idx → EReal) : S50000x2.Idx → EReal :=
  fun i => (∑ k : Fin 300, max (a (ix2 (i 0) k) * d (ix2 (i 0) (0 : Fin 1)) + b (ix2 (0 : Fin 1) k)) (Ideal.ofBits .f32 0x00000000#32)
      * wf (ix2 k (i 1))) + bf (ix2 (0 : Fin 1) (i 1))

/-- The index maps over the 25 grid points: the row windows (aggregate, factors, result) sit at row block `t`, the
    bias and weight windows at their one block. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregate's block at point `t` is rows `2000 t … 2000 t + 1999` of the array. -/
theorem aggregate_block_apply (c : Dev nD) (t : Fin cfg1.N) (y : S2000x300.Idx) (i : S50000x300.Idx)
    (h0 : (i 0).val = 2000 * t.val + (y 0).val) (h1 : (i 1).val = (y 1).val) :
    (iblk1 V c 0 t : Vec Ideal S2000x300 .f32) y = (V c main_v29 : S50000x300.Idx → EReal) i := by
  obtain ⟨e0, e1, -⟩ := index_facts1 t
  show (V c main_v29 : S50000x300.Idx → EReal) (((cfg1.win 0).blk t).view.emb y) = _
  refine congrArg (V c main_v29 : S50000x300.Idx → EReal) (funext fun a => Fin.ext ?_)
  match a with
  | ⟨0, _⟩ => show win1_0.index t (0 : Fin 2) * 2000 + 1 * (y 0).val = (i 0).val; rw [e0, h0]; omega
  | ⟨1, _⟩ => show win1_0.index t (1 : Fin 2) * 300 + 1 * (y 1).val = (i 1).val; rw [e1, h1]; omega

/-- The factors' block at point `t` is rows `2000 t … 2000 t + 1999` of the column. -/
theorem row_factors_block_apply (c : Dev nD) (t : Fin cfg1.N) (y : S2000x1.Idx) (i : S50000x1.Idx)
    (h0 : (i 0).val = 2000 * t.val + (y 0).val) (h1 : (i 1).val = (y 1).val) :
    (iblk1 V c 1 t : Vec Ideal S2000x1 .f32) y = (V c main_v17 : S50000x1.Idx → EReal) i := by
  obtain ⟨-, -, e0, e1, -⟩ := index_facts1 t
  show (V c main_v17 : S50000x1.Idx → EReal) (((cfg1.win 1).blk t).view.emb y) = _
  refine congrArg (V c main_v17 : S50000x1.Idx → EReal) (funext fun a => Fin.ext ?_)
  match a with
  | ⟨0, _⟩ => show win1_1.index t (0 : Fin 2) * 2000 + 1 * (y 0).val = (i 0).val; rw [e0, h0]; omega
  | ⟨1, _⟩ => show win1_1.index t (1 : Fin 2) * 1 + 1 * (y 1).val = (i 1).val; rw [e1, h1]; omega

/-- The bias's block at every point is the whole row. -/
theorem bias_block_apply (c : Dev nD) (t : Fin cfg1.N) (y : S1x300.Idx) :
    (iblk1 V c 2 t : Vec Ideal S1x300 .f32) y = (V c main_v30 : S1x300.Idx → EReal) y := by
  obtain ⟨-, -, -, -, e0, e1, -⟩ := index_facts1 t
  show (V c main_v30 : S1x300.Idx → EReal) (((cfg1.win 2).blk t).view.emb y) = _
  refine congrArg (V c main_v30 : S1x300.Idx → EReal) (funext fun a => Fin.ext ?_)
  match a with
  | ⟨0, _⟩ => show win1_2.index t (0 : Fin 2) * 1 + 1 * (y 0).val = (y 0).val; rw [e0]; omega
  | ⟨1, _⟩ => show win1_2.index t (1 : Fin 2) * 300 + 1 * (y 1).val = (y 1).val; rw [e1]; omega

/-- The weight's block at every point is the whole matrix. -/
theorem out_weight_block_apply (c : Dev nD) (t : Fin cfg1.N) (y : S300x2.Idx) :
    (iblk1 V c 3 t : Vec Ideal S300x2 .f32) y = (V c main_arg4 : S300x2.Idx → EReal) y := by
  obtain ⟨-, -, -, -, -, -, e0, e1, -⟩ := index_facts1 t
  show (V c main_arg4 : S300x2.Idx → EReal) (((cfg1.win 3).blk t).view.emb y) = _
  refine congrArg (V c main_arg4 : S300x2.Idx → EReal) (funext fun a => Fin.ext ?_)
  match a with
  | ⟨0, _⟩ => show win1_3.index t (0 : Fin 2) * 300 + 1 * (y 0).val = (y 0).val; rw [e0]; omega
  | ⟨1, _⟩ => show win1_3.index t (1 : Fin 2) * 2 + 1 * (y 1).val = (y 1).val; rw [e1]; omega

/-- The output bias's block at every point is the whole row. -/
theorem out_bias_block_apply (c : Dev nD) (t : Fin cfg1.N) (y : S1x2.Idx) :
    (iblk1 V c 4 t : Vec Ideal S1x2 .f32) y = (V c main_v31 : S1x2.Idx → EReal) y := by
  obtain ⟨-, -, -, -, -, -, -, -, e0, e1, -⟩ := index_facts1 t
  show (V c main_v31 : S1x2.Idx → EReal) (((cfg1.win 4).blk t).view.emb y) = _
  refine congrArg (V c main_v31 : S1x2.Idx → EReal) (funext fun a => Fin.ext ?_)
  match a with
  | ⟨0, _⟩ => show win1_4.index t (0 : Fin 2) * 1 + 1 * (y 0).val = (y 0).val; rw [e0]; omega
  | ⟨1, _⟩ => show win1_4.index t (1 : Fin 2) * 2 + 1 * (y 1).val = (y 1).val; rw [e1]; omega

/-- What the body computes at `(p, q)` of point `t`'s block is `scores` at row `2000 t + p`, column `q`. -/
theorem point1_apply (c : Dev nD) (t : Fin cfg1.N) (p : Fin 2000) (q : Fin 2) (i : S50000x2.Idx)
    (h0 : (i 0).val = 2000 * t.val + p.val) (h1 : (i 1).val = q.val) :
    k1_pay1 (F := Ideal) (iblk1 V c 0 t) (iblk1 V c 1 t) (iblk1 V c 2 t) (iblk1 V c 3 t) (iblk1 V c 4 t) (ix2 p q)
      = scores (V c main_v29) (V c main_v17) (V c main_v30) (V c main_arg4) (V c main_v31) i := by
  refine (payload1_apply _ _ _ _ _ p q).trans ?_
  have hq : i 1 = q := Fin.ext h1
  unfold scores
  rw [hq]
  refine congrArg₂ (· + ·) (Finset.sum_congr rfl fun k _ => congrArg₂ (· * ·)
    (congrArg (max · _) (congrArg₂ (· + ·) (congrArg₂ (· * ·) ?_ ?_) ?_)) ?_) ?_
  · exact aggregate_block_apply V c t (ix2 p k) (ix2 (i 0) k) h0 rfl
  · exact row_factors_block_apply V c t (ix2 p (0 : Fin 1)) (ix2 (i 0) (0 : Fin 1)) h0 rfl
  · exact bias_block_apply V c t (ix2 (0 : Fin 1) k)
  · exact out_weight_block_apply V c t (ix2 k q)
  · exact out_bias_block_apply V c t (ix2 (0 : Fin 1) q)

/-- What point `t` writes back is block `t` of `scores` of the arrays as the region finds them. -/
theorem flushed1_eq (c : Dev nD) (t : Fin cfg1.N) :
    (dat1 (F := Ideal) V c).flushed 5 t
      = ((cfg1.win 5).blk t).view.read (Elt Ideal)
          (scores (V c main_v29) (V c main_v17) (V c main_v30) (V c main_arg4) (V c main_v31)) := by
  show (cfg1.win 5).cut (grid1.coords t) ((dat1 V c).after 5 t) = _
  rw [after1_5]
  unfold out1_5
  rw [View.canon_unit_zero whole_offsets]
  simp only [View.ld_unit_zero (S := S2000x300) whole_offsets, View.ld_unit_zero (S := S2000x1) whole_offsets,
    View.ld_unit_zero (S := S1x300) whole_offsets, View.ld_unit_zero (S := S300x2) whole_offsets,
    View.ld_unit_zero (S := S1x2) whole_offsets]
  obtain ⟨-, -, -, -, -, -, -, -, -, -, e0, e1⟩ := index_facts1 t
  funext j
  obtain ⟨p, q, rfl⟩ : ∃ (p : Fin 2000) (q : Fin 2), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = scores (V c main_v29) (V c main_v17) (V c main_v30) (V c main_arg4) (V c main_v31)
        (((cfg1.win 5).blk t).view.emb (ix2 p q))
  refine point1_apply V c t p q _ ?_ ?_
  · show win1_5.index t (0 : Fin 2) * 2000 + 1 * p.val = _; rw [e0]; omega
  · show win1_5.index t (1 : Fin 2) * 2 + 1 * q.val = _; rw [e1]; omega

/-- An index of the result array is in point `t`'s block iff each coordinate is in the block's range on its axis. -/
theorem mem_block1 (t : Fin cfg1.N) (i : S50000x2.Idx) :
    i ∈ ((cfg1.win 5).blk t).view.set ↔ ∀ a : Fin 2, win1_5.index t a * S2000x2.size a ≤ (i a).val
      ∧ (i a).val < win1_5.index t a * S2000x2.size a + S2000x2.size a := by
  show i ∈ ((View.whole main_v32).slice (win1_5.rect t)).set ↔ _
  rw [View.set_slice_whole, Rect.mem_set_unit]
  exact Iff.rfl

/-- Every row of the result is in the block of the point `row / 2000`. -/
theorem cover1 (i : S50000x2.Idx) : ∃ t : Fin cfg1.N, (cfg1.win 5).flush t = true ∧ i ∈ ((cfg1.win 5).blk t).view.set := by
  have hi0 : (i 0).val < 50000 := (i 0).isLt
  have hi1 : (i 1).val < 2 := (i 1).isLt
  have hN : cfg1.N = 25 := N_1
  let t : Fin cfg1.N := ⟨(i 0).val / 2000, by rw [hN]; omega⟩
  obtain ⟨-, -, -, -, -, -, -, -, -, -, e0, e1⟩ := index_facts1 t
  have ht : t.val = (i 0).val / 2000 := rfl
  refine ⟨t, flush1_5 t, ?_⟩
  rw [mem_block1]
  intro a
  match a with
  | ⟨0, _⟩ => show win1_5.index t (0 : Fin 2) * 2000 ≤ (i 0).val ∧ (i 0).val < win1_5.index t (0 : Fin 2) * 2000 + 2000; rw [e0, ht]; omega
  | ⟨1, _⟩ => show win1_5.index t (1 : Fin 2) * 2 ≤ (i 1).val ∧ (i 1).val < win1_5.index t (1 : Fin 2) * 2 + 2; rw [e1]; omega

/-- THE RESULT ARRAY OF REGION 1 after its 25 points: `scores` of the aggregate, the row factors, the bias, the weight
    and the output bias as the region finds them. -/
theorem region1_final (c : Dev nD) :
    (dat1 (F := Ideal) V c).arrAt 5 cfg1.N
      = scores (V c main_v29) (V c main_v17) (V c main_v30) (V c main_arg4) (V c main_v31) :=
  (dat1 (F := Ideal) V c).arrAt_eq_of_cover 5 (scores (V c main_v29) (V c main_v17) (V c main_v30) (V c main_arg4) (V c main_v31))
    (fun t _ => flushed1_eq V c t) cover1

end Region1

end Cert.KernelIdeal.RegionValue

end
-- ==== Proof.Spec.lean ====
/-
  The message-passing layer as ONE function of the argument arrays, stage by stage, over the literal shapes of the
  printed reference program (a graph convolution with self loops and symmetric normalisation, followed by a dense
  layer):

    src, dst   the two rows of the edge list, each followed by 0 … 49999 (the self loops): 850000 index words;
    deg        the number of index words of dst that land on a node (a scatter of ones into zeros);
    dis        deg^(-1/2) where deg > 0, else 0 (the maximum with 1 keeps the root away from 0);
    nrm v      the index words v as the gathers read them: 50000 added to a negative word, in a column;
    hid        x · W1, the hidden features;
    msg        row e of the messages: hid[src e] scaled by dis[src e] · dis[dst e];
    agg        the messages added into the row their dst word lands on;
    out        max(agg + b1, 0) · Wf + bf.

  Both printed programs begin with the same operations up to dis, so both are read against these definitions.
-/
import proofs.«105829_j2448131359246_2_alg».proof.Proof.Gen.ReferenceIdeal
import Idealize.ShloMosaic.PureOps.Ideal

noncomputable section

namespace Cert.Gcn

open Cert.ReferenceIdeal Cert.ReferenceIdeal.Facts₀ Cert.ReferenceIdeal.Facts Idealize.ShloMosaic Idealize.ShloMosaic.TcCoe

variable {F : FTy → Type} [FloatOps F]

/-- Row r of the edge list followed by the self loops 0 … 49999. -/
def srcW (ei : (⟨S2x800000, .i32⟩ : BufTy).Contents (Elt F)) : (⟨S850000, .i32⟩ : BufTy).Contents (Elt F) :=
  concatenate S850000 0 [⟨S800000, shapeCast _ (extractStridedSlice S1x800000 ![0, 0] ei slices_S2x800000_S1x800000_0_0) shapeCasts_S1x800000_S800000⟩,
    ⟨S50000, iotaInDim S50000 32 0⟩] concatenates_S800000_S50000_S850000_d0

def dstW (ei : (⟨S2x800000, .i32⟩ : BufTy).Contents (Elt F)) : (⟨S850000, .i32⟩ : BufTy).Contents (Elt F) :=
  concatenate S850000 0 [⟨S800000, shapeCast _ (extractStridedSlice S1x800000 ![1, 0] ei slices_S2x800000_S1x800000_1_0) shapeCasts_S1x800000_S800000⟩,
    ⟨S50000, iotaInDim S50000 32 0⟩] concatenates_S800000_S50000_S850000_d0

/-- The index words as a column: what a scatter takes. -/
def col (v : (⟨S850000, .i32⟩ : BufTy).Contents (Elt F)) : (⟨S850000x1, .i32⟩ : BufTy).Contents (Elt F) :=
  broadcastInDim S850000x1 ![0] bcast_S850000_S850000x1_0 v

/-- The number of dst words landing on each node. -/
def deg (ei : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant (F := F) S_ .f32 0x00000000#32))
    (col (F := F) (dstW (F := F) ei))
    (broadcastInDim S850000 ![] bcast_S_S850000 (constant (F := F) S_ .f32 0x3F800000#32))

/-- deg^(-1/2) where deg > 0, else 0. -/
def dis (ei : (⟨S2x800000, .i32⟩ : BufTy).Contents (Elt F)) : (⟨S50000, .f32⟩ : BufTy).Contents (Elt F) :=
  select (cmpf .ogt (deg (F := F) ei) (broadcastInDim S50000 ![] bcast_S_S50000 (constant (F := F) S_ .f32 0x00000000#32)))
    (Host.rsqrt (maximumf (deg (F := F) ei) (broadcastInDim S50000 ![] bcast_S_S50000 (constant (F := F) S_ .f32 0x3F800000#32))))
    (broadcastInDim S50000 ![] bcast_S_S50000 (id (constant (F := F) S_ .f32 0x00000000#32)))

/-- The index words as a gather reads them: 50000 added to a negative word; in a column. -/
def nrm (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The hidden features x · W1. -/
def hid (x : (⟨S50000x256, .f32⟩ : BufTy).Contents (Elt F)) (w : (⟨S256x300, .f32⟩ : BufTy).Contents (Elt F)) :
    (⟨S50000x300, .f32⟩ : BufTy).Contents (Elt F) :=
  Host.dotGeneral dot_S50000x256_S256x300_S50000x300_1_0_0_1_n_n none x w

/-- The edge weights dis[src e] · dis[dst e]. -/
def wgt (ei : (⟨S2x800000, .i32⟩ : BufTy).Contents (Elt F)) : (⟨S850000, .f32⟩ : BufTy).Contents (Elt F) :=
  mulf (Host.gather gather_S50000_S850000x1_S850000_n_0_n_n_0_1_1 (dis (F := F) ei) (nrm (F := F) (srcW (F := F) ei)))
    (Host.gather gather_S50000_S850000x1_S850000_n_0_n_n_0_1_1 (dis (F := F) ei) (nrm (F := F) (dstW (F := F) ei)))

/-- The weighted messages, one row per index word. -/
def msg (x : (⟨S50000x256, .f32⟩ : BufTy).Contents (Elt F)) (ei : (⟨S2x800000, .i32⟩ : BufTy).Contents (Elt F))
    (w : (⟨S256x300, .f32⟩ : BufTy).Contents (Elt F)) : (⟨S850000x300, .f32⟩ : BufTy).Contents (Elt F) :=
  mulf (Host.gather gather_S50000x300_S850000x1_S850000x300_1_0_n_n_0_1_1300 (hid (F := F) x w) (nrm (F := F) (srcW (F := F) ei)))
    (broadcastInDim S850000x300 ![0, 1] bcast_S850000x1_S850000x300_0_1
      (broadcastInDim S850000x1 ![0] bcast_S850000_S850000x1_0 (wgt (F := F) ei)))

/-- The messages added into the rows their dst words land on. -/
def agg (x : (⟨S50000x256, .f32⟩ : BufTy).Contents (Elt F)) (ei : (⟨S2x800000, .i32⟩ : BufTy).Contents (Elt F))
    (w : (⟨S256x300, .f32⟩ : BufTy).Contents (Elt F)) : (⟨S50000x300, .f32⟩ : BufTy).Contents (Elt F) :=
  Host.scatterAdd scatter_S50000x300_S850000x1_S850000x300_1_0_0_1
    (broadcastInDim S50000x300 ![] bcast_S_S50000x300 (constant (F := F) S_ .f32 0x00000000#32))
    (col (F := F) (dstW (F := F) ei)) (msg (F := F) x ei w)

/-- The reference's result: max(agg + b1, 0) · Wf + bf. -/
def out (x : (⟨S50000x256, .f32⟩ : BufTy).Contents (Elt F)) (ei : (⟨S2x800000, .i32⟩ : BufTy).Contents (Elt F))
    (w : (⟨S256x300, .f32⟩ : BufTy).Contents (Elt F)) (b1 : (⟨S300, .f32⟩ : BufTy).Contents (Elt F))
    (wf : (⟨S300x2, .f32⟩ : BufTy).Contents (Elt F)) (bf : (⟨S2, .f32⟩ : BufTy).Contents (Elt F)) :
    (⟨S50000x2, .f32⟩ : BufTy).Contents (Elt F) :=
  addf (Host.dotGeneral dot_S50000x300_S300x2_S50000x2_1_0_0_1_n_n none
      (maximumf (addf (agg (F := F) x ei w)
          (broadcastInDim S50000x300 ![0, 1] bcast_S1x300_S50000x300_0_1 (broadcastInDim S1x300 ![1] bcast_S300_S1x300_1 b1)))
        (broadcastInDim S50000x300 ![] bcast_S_S50000x300 (constant (F := F) S_ .f32 0x00000000#32)))
      wf)
    (broadcastInDim S50000x2 ![0, 1] bcast_S1x2_S50000x2_0_1 (broadcastInDim S1x2 ![1] bcast_S2_S1x2_1 bf))

end Cert.Gcn

end
-- ==== Proof.KWhole.lean ====
/-
  The idealized kernel's result array as one function of the argument arrays: the second launch's closed form over the
  buffers it finds, which the host stretch between the launches computed from the first launch's closed form.
  Stated over the reference's shapes and side conditions, so that the comparison with the reference is between two
  terms of one vocabulary: the kernel's host stages ARE the reference's (the two programs begin with the same
  operations).
-/
import proofs.«105829_j2448131359246_2_alg».proof.Proof.KHost
import proofs.«105829_j2448131359246_2_alg».proof.Proof.KRegion0
import proofs.«105829_j2448131359246_2_alg».proof.Proof.KRegion1
import proofs.«105829_j2448131359246_2_alg».proof.Proof.KRun
import proofs.«105829_j2448131359246_2_alg».proof.Proof.Spec

noncomputable section

namespace Cert.KernelIdeal.WholeValue

open Idealize.ShloMosaic Idealize.ShloMosaic.TcCoe Idealize.SL.Sem Idealize.ShloMosaic.ValueIdx
open Cert.KernelIdeal

/-! ## The kernel's host stages are the reference's -/

theorem srcW_eq (ei) : HostValue.srcW (F := Ideal) ei = Cert.Gcn.srcW (F := Ideal) ei := rfl
theorem dstW_eq (ei) : HostValue.dstW (F := Ideal) ei = Cert.Gcn.dstW (F := Ideal) ei := rfl
theorem dis_eq (ei) : HostValue.dis (F := Ideal) ei = Cert.Gcn.dis (F := Ideal) ei := rfl

/-- The rows of `h` gathered at the source words and added into the rows the destination words land on, over the
    reference's dimension records (a change of float format is the identity on extended reals). -/
def gathered (ei : (⟨Cert.ReferenceIdeal.S2x800000, .i32⟩ : BufTy).Contents (Elt Ideal))
    (h : Cert.ReferenceIdeal.S50000x300.Idx → EReal) : Cert.ReferenceIdeal.S50000x300.Idx → EReal :=
  Host.scatterAdd (F := Ideal) (φ := .f32) Cert.ReferenceIdeal.scatter_S50000x300_S850000x1_S850000x300_1_0_0_1
    (broadcastInDim Cert.ReferenceIdeal.S50000x300 ![] Cert.ReferenceIdeal.Facts₀.bcast_S_S50000x300
      (constant (F := Ideal) Cert.ReferenceIdeal.S_ .f32 0x00000000#32))
    (Cert.Gcn.col (F := Ideal) (Cert.Gcn.dstW (F := Ideal) ei))
    (Host.gather Cert.ReferenceIdeal.gather_S50000x300_S850000x1_S850000x300_1_0_n_n_0_1_1300 h
      (Cert.Gcn.nrm (F := Ideal) (Cert.Gcn.srcW (F := Ideal) ei)))

theorem gathered_eq (ei) (h) : HostValue.gathered (F := Ideal) ei h = gathered ei h := rfl

/-- The kernel's result as a function of the six argument arrays. -/
def result (x : Cert.ReferenceIdeal.S50000x256.Idx → EReal) (ei : (⟨Cert.ReferenceIdeal.S2x800000, .i32⟩ : BufTy).Contents (Elt Ideal))
    (w : Cert.ReferenceIdeal.S256x300.Idx → EReal) (b1 : Cert.ReferenceIdeal.S300.Idx → EReal)
    (wf : Cert.ReferenceIdeal.S300x2.Idx → EReal) (bf : Cert.ReferenceIdeal.S2.Idx → EReal) :
    Cert.ReferenceIdeal.S50000x2.Idx → EReal :=
  RegionValue.scores
    (gathered ei (RegionValue.hidden x w (shapeCast _ (Cert.Gcn.dis (F := Ideal) ei) Facts₀.shapeCasts_S50000_S50000x1)))
    (shapeCast _ (Cert.Gcn.dis (F := Ideal) ei) Facts₀.shapeCasts_S50000_S50000x1)
    (shapeCast _ b1 Facts₀.shapeCasts_S300_S1x300) wf (shapeCast _ bf Facts₀.shapeCasts_S2_S1x2)

variable (m : (ℓ : Loc nD τ sig) → Buf (Elt Ideal) ℓ) (ρ : Dev nD → PrngReg)

/-- What the result buffer holds after the run. -/
theorem result_eq (c : Dev nD) :
    Gen.W6 m ρ c (Proc.devRef .tc main_v32)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [RunValue.W6_result m ρ c, RegionValue.region1_final (Gen.V5 m ρ) c, HostValue.entry1_agg m ρ c,
    (HostValue.entry1_rest m ρ c).1, (HostValue.entry1_rest m ρ c).2.1, (HostValue.entry1_rest m ρ c).2.2.1,
    (HostValue.entry1_rest m ρ c).2.2.2, RunValue.W4_hidden m ρ c, RegionValue.region0_final (Gen.V3 m ρ) c,
    HostValue.entry0_x m ρ c, HostValue.entry0_w m ρ c, HostValue.entry0_scale m ρ c]
  rfl

end Cert.KernelIdeal.WholeValue

end
-- ==== Proof.RefRun.lean ====
/-
  The reference program's run read back. Its @main is a straight line of 70 host operations (the two functions it
  calls, the select behind jnp.where and the maximum behind relu, stand at their call sites); every weakly fair
  execution terminates with each buffer at the operations' fold over the launch contents, and at the result buffer
  that fold is the layer's function `Cert.Gcn.out` of the six argument arrays.
-/
import proofs.«105829_j2448131359246_2_alg».proof.Proof.Gen.ReferenceIdeal
import proofs.«105829_j2448131359246_2_alg».proof.Proof.Spec
import Idealize.ShloMosaic.Lib.StableHlo.Run

noncomputable section

namespace Cert.ReferenceIdeal.RefValue

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- @main's 70 operations, in order. -/
abbrev ops : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v10 main_v13 main_v14 (maximumf : (⟨S50000, .f32⟩ : BufTy).Contents (Elt F) → (⟨S50000, .f32⟩ : BufTy).Contents (Elt F) → (⟨S50000, .f32⟩ : BufTy).Contents (Elt F)),
    StableHlo.unary main_v14 main_v15 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v15 : StableHlo.TRef sig ⟨S50000, .f32⟩) main_call0.v1 main_call0.v2 select,
    StableHlo.nullary main_c (constantI S_ 32 0#32),
    StableHlo.unary main_c main_v17 (broadcastInDim S850000 ![] bcast_S_S850000 : (⟨S_, .i32⟩ : BufTy).Contents (Elt F) → (⟨S850000, .i32⟩ : BufTy).Contents (Elt F)),
    StableHlo.binary main_v3 main_v17 main_v18 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v19 (broadcastInDim S850000 ![] bcast_S_S850000 : (⟨S_, .i32⟩ : BufTy).Contents (Elt F) → (⟨S850000, .i32⟩ : BufTy).Contents (Elt F)),
    StableHlo.binary main_v3 main_v19 main_v20 (addi : (⟨S850000, .i32⟩ : BufTy).Contents (Elt F) → (⟨S850000, .i32⟩ : BufTy).Contents (Elt F) → (⟨S850000, .i32⟩ : BufTy).Contents (Elt F)),
    StableHlo.ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v21 main_v22 (broadcastInDim S850000x1 ![0] bcast_S850000_S850000x1_0 : (⟨S850000, .i32⟩ : BufTy).Contents (Elt F) → (⟨S850000x1, .i32⟩ : BufTy).Contents (Elt F)),
    StableHlo.binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_5 (constantI S_ 32 0#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v26 (broadcastInDim S850000 ![] bcast_S_S850000 : (⟨S_, .i32⟩ : BufTy).Contents (Elt F) → (⟨S850000, .i32⟩ : BufTy).Contents (Elt F)),
    StableHlo.binary main_v6 main_v26 main_v27 (addi : (⟨S850000, .i32⟩ : BufTy).Contents (Elt F) → (⟨S850000, .i32⟩ : BufTy).Contents (Elt F) → (⟨S850000, .i32⟩ : BufTy).Contents (Elt F)),
    StableHlo.ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v28 main_v29 (broadcastInDim S850000x1 ![0] bcast_S850000_S850000x1_0 : (⟨S850000, .i32⟩ : BufTy).Contents (Elt F) → (⟨S850000x1, .i32⟩ : BufTy).Contents (Elt F)),
    StableHlo.binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v23 main_v30 main_v31 (mulf : (⟨S850000, .f32⟩ : BufTy).Contents (Elt F) → (⟨S850000, .f32⟩ : BufTy).Contents (Elt F) → (⟨S850000, .f32⟩ : BufTy).Contents (Elt F)),
    StableHlo.binary main_arg0 main_arg2 main_v32 ((fun l r => Host.dotGeneral dot_S50000x256_S256x300_S50000x300_1_0_0_1_n_n none l r) : (⟨S50000x256, .f32⟩ : BufTy).Contents (Elt F) → (⟨S256x300, .f32⟩ : BufTy).Contents (Elt F) → (⟨S50000x300, .f32⟩ : BufTy).Contents (Elt F)),
    StableHlo.nullary main_c_7 (constantI S_ 32 0#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v35 (broadcastInDim S850000 ![] bcast_S_S850000 : (⟨S_, .i32⟩ : BufTy).Contents (Elt F) → (⟨S850000, .i32⟩ : BufTy).Contents (Elt F)),
    StableHlo.binary main_v3 main_v35 main_v36 (addi : (⟨S850000, .i32⟩ : BufTy).Contents (Elt F) → (⟨S850000, .i32⟩ : BufTy).Contents (Elt F) → (⟨S850000, .i32⟩ : BufTy).Contents (Elt F)),
    StableHlo.ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v37 main_v38 (broadcastInDim S850000x1 ![0] bcast_S850000_S850000x1_0 : (⟨S850000, .i32⟩ : BufTy).Contents (Elt F) → (⟨S850000x1, .i32⟩ : BufTy).Contents (Elt F)),
    StableHlo.binary main_v32 main_v38 main_v39 ((fun x i => Host.gather gather_S50000x300_S850000x1_S850000x300_1_0_n_n_0_1_1300 x i) : (⟨S50000x300, .f32⟩ : BufTy).Contents (Elt F) → (⟨S850000x1, .i32⟩ : BufTy).Contents (Elt F) → (⟨S850000x300, .f32⟩ : BufTy).Contents (Elt F)),
    StableHlo.unary main_v31 main_v40 (broadcastInDim S850000x1 ![0] bcast_S850000_S850000x1_0 : (⟨S850000, .f32⟩ : BufTy).Contents (Elt F) → (⟨S850000x1, .f32⟩ : BufTy).Contents (Elt F)),
    StableHlo.unary main_v40 main_v41 (broadcastInDim S850000x300 ![0, 1] bcast_S850000x1_S850000x300_0_1 : (⟨S850000x1, .f32⟩ : BufTy).Contents (Elt F) → (⟨S850000x300, .f32⟩ : BufTy).Contents (Elt F)),
    StableHlo.binary main_v39 main_v41 main_v42 (mulf : (⟨S850000x300, .f32⟩ : BufTy).Contents (Elt F) → (⟨S850000x300, .f32⟩ : BufTy).Contents (Elt F) → (⟨S850000x300, .f32⟩ : BufTy).Contents (Elt F)),
    StableHlo.nullary main_cst_9 (constant S_ .f32 0x00000000#32),
    StableHlo.unary main_cst_9 main_v43 (broadcastInDim S50000x300 ![] bcast_S_S50000x300 : (⟨S_, .f32⟩ : BufTy).Contents (Elt F) → (⟨S50000x300, .f32⟩ : BufTy).Contents (Elt F)),
    StableHlo.unary main_v6 main_v44 (broadcastInDim S850000x1 ![0] bcast_S850000_S850000x1_0 : (⟨S850000, .i32⟩ : BufTy).Contents (Elt F) → (⟨S850000x1, .i32⟩ : BufTy).Contents (Elt F)),
    StableHlo.ternary main_v43 main_v44 main_v42 main_v45 ((fun x i u => Host.scatterAdd scatter_S50000x300_S850000x1_S850000x300_1_0_0_1 x i u) : (⟨S50000x300, .f32⟩ : BufTy).Contents (Elt F) → (⟨S850000x1, .i32⟩ : BufTy).Contents (Elt F) → (⟨S850000x300, .f32⟩ : BufTy).Contents (Elt F) → (⟨S50000x300, .f32⟩ : BufTy).Contents (Elt F)),
    StableHlo.unary main_arg3 main_v46 (broadcastInDim S1x300 ![1] bcast_S300_S1x300_1 : (⟨S300, .f32⟩ : BufTy).Contents (Elt F) → (⟨S1x300, .f32⟩ : BufTy).Contents (Elt F)),
    StableHlo.unary main_v46 main_v47 (broadcastInDim S50000x300 ![0, 1] bcast_S1x300_S50000x300_0_1 : (⟨S1x300, .f32⟩ : BufTy).Contents (Elt F) → (⟨S50000x300, .f32⟩ : BufTy).Contents (Elt F)),
    StableHlo.binary main_v45 main_v47 main_v48 (addf : (⟨S50000x300, .f32⟩ : BufTy).Contents (Elt F) → (⟨S50000x300, .f32⟩ : BufTy).Contents (Elt F) → (⟨S50000x300, .f32⟩ : BufTy).Contents (Elt F)),
    StableHlo.TRef.nullary main_call1.cst (constant S_ .f32 0x00000000#32),
    StableHlo.TRef.unary main_call1.cst main_call1.v0 (broadcastInDim S50000x300 ![] bcast_S_S50000x300),
    StableHlo.TRef.binary (.of main_v48 : StableHlo.TRef sig ⟨S50000x300, .f32⟩) main_call1.v0 main_call1.v1 maximumf,
    StableHlo.binary main_v49 main_arg4 main_v50 ((fun l r => Host.dotGeneral dot_S50000x300_S300x2_S50000x2_1_0_0_1_n_n none l r) : (⟨S50000x300, .f32⟩ : BufTy).Contents (Elt F) → (⟨S300x2, .f32⟩ : BufTy).Contents (Elt F) → (⟨S50000x2, .f32⟩ : BufTy).Contents (Elt F)),
    StableHlo.unary main_arg5 main_v51 (broadcastInDim S1x2 ![1] bcast_S2_S1x2_1 : (⟨S2, .f32⟩ : BufTy).Contents (Elt F) → (⟨S1x2, .f32⟩ : BufTy).Contents (Elt F)),
    StableHlo.unary main_v51 main_v52 (broadcastInDim S50000x2 ![0, 1] bcast_S1x2_S50000x2_0_1 : (⟨S1x2, .f32⟩ : BufTy).Contents (Elt F) → (⟨S50000x2, .f32⟩ : BufTy).Contents (Elt F)),
    StableHlo.binary main_v50 main_v52 main_v53 (addf : (⟨S50000x2, .f32⟩ : BufTy).Contents (Elt F) → (⟨S50000x2, .f32⟩ : BufTy).Contents (Elt F) → (⟨S50000x2, .f32⟩ : BufTy).Contents (Elt F)) ]

set_option maxRecDepth 8192 in
set_option maxHeartbeats 4000000 in
/-- @main is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- Every weakly fair execution of @main terminates with each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

set_option maxRecDepth 8192 in
set_option maxHeartbeats 28000000 in
/-- The fold at the result buffer is the layer's function of the arguments' contents. -/
theorem out_eq (V : Valuation τ sig (Elt F)) :
    after ops V (Proc.devRef .tc main_v53)
      = Cert.Gcn.out (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results_simp <;> rfl

set_option maxRecDepth 8192 in
set_option maxHeartbeats 4000000 in
theorem arg_eq (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5) := by
  refine ⟨?_, ?_, ?_, ?_, ?_, ?_⟩ <;> (after_results_simp <;> rfl)

/-- The reference's run: the result at the layer's function of the launch arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53)
        = Cert.Gcn.out (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      have ha := arg_eq (F := F) (launchContents m c)
      ⟨(h c main_v53).trans (out_eq (F := F) (launchContents m c)),
       (h c main_arg0).trans ha.1, (h c main_arg1).trans ha.2.1, (h c main_arg2).trans ha.2.2.1,
       (h c main_arg3).trans ha.2.2.2.1, (h c main_arg4).trans ha.2.2.2.2.1, (h c main_arg5).trans ha.2.2.2.2.2⟩)
    (run_all m ρ)

end Cert.ReferenceIdeal.RefValue

end
-- ==== Proof.LibPlainDot.lean ====
/-
  The plain matrix product `[a, K] · [K, b]` (left operand contracted on its last axis, right operand on its first, no
  batch axes) read at an entry on the extended reals: `(x · y)[p, c] = Σₖ x[p, k] · y[k, c]`, the sum over `Fin K`.
  Stated once for any dimension record of that form, then for the two operations that compute it: a kernel's matrix
  unit product into a zero accumulator, and the host's `dot_general`.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product: contract the left operand's axis 1 with the right operand's axis 0, keep
    the left operand's axis 0 and the right operand's axis 1, no batch axes. -/
structure IsPlain {a K b : ℕ} (D : DotDims ⟨2, ![a, K]⟩ ⟨2, ![K, b]⟩ ⟨2, ![a, b]⟩) : Prop where
  lc : D.lhsContracting = [1]
  rc : D.rhsContracting = [0]
  ln : D.lhsNonContracting = [0]
  rn : D.rhsNonContracting = [1]
  lb : D.lhsBatch = []
  rb : D.rhsBatch = []

/-- The record of a plain product, its lists spelt out. -/
abbrev mk {a K b : ℕ} (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ := ⟨[1], [0], [0], [1], [], [], wf⟩

section
variable {a K b : ℕ} (wf : DotDims.WF ⟨2, ![a, K]⟩ ⟨2, ![K, b]⟩ ⟨2, ![a, b]⟩ [1] [0] [0] [1] [] [])

/-- The left operand's row is the entry's row. -/
theorem lhs_row (i : (⟨2, ![a, b]⟩ : Shape).Idx) (q : (mk wf).contr.Idx) : ((mk wf).lhsIdx i q 0).val = (i 0).val := by
  unfold DotDims.lhsIdx
  rw [dif_neg (show ¬(0 : Fin (Shape.rank ⟨2, ![a, K]⟩)) ∈ (mk wf).lhsBatch from fun h => nomatch h),
    dif_pos (show (0 : Fin (Shape.rank ⟨2, ![a, K]⟩)) ∈ (mk wf).lhsNonContracting from List.Mem.head _)]
  rfl

/-- The left operand's column is the contraction coordinate. -/
theorem lhs_col (i : (⟨2, ![a, b]⟩ : Shape).Idx) (q : (mk wf).contr.Idx) :
    ((mk wf).lhsIdx i q 1).val = (q ⟨0, Nat.one_pos⟩).val :=
  (mk wf).lhsIdx_val_of_single rfl i q

/-- The right operand's row is the contraction coordinate. -/
theorem rhs_row (i : (⟨2, ![a, b]⟩ : Shape).Idx) (q : (mk wf).contr.Idx) :
    ((mk wf).rhsIdx i q 0).val = (q ⟨0, Nat.one_pos⟩).val :=
  (mk wf).rhsIdx_val_of_single rfl i q

/-- The right operand's column is the entry's column. -/
theorem rhs_col (i : (⟨2, ![a, b]⟩ : Shape).Idx) (q : (mk wf).contr.Idx) : ((mk wf).rhsIdx i q 1).val = (i 1).val := by
  unfold DotDims.rhsIdx
  rw [dif_neg (show ¬(1 : Fin (Shape.rank ⟨2, ![K, b]⟩)) ∈ (mk wf).rhsBatch from fun h => nomatch h),
    dif_pos (show (1 : Fin (Shape.rank ⟨2, ![K, b]⟩)) ∈ (mk wf).rhsNonContracting from List.Mem.head _)]
  rfl

/-- The contraction at `(p, c)`, for the spelt-out record. -/
theorem sum_mk (x : (⟨2, ![a, K]⟩ : Shape).Idx → EReal) (y : (⟨2, ![K, b]⟩ : Shape).Idx → EReal) (p : Fin a) (c : Fin b) :
    ∑ k : (mk wf).contr.Idx, x ((mk wf).lhsIdx (ix2 p c) k) * y ((mk wf).rhsIdx (ix2 p c) k)
      = ∑ k : Fin K, x (ix2 p k) * y (ix2 k c) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p c) ((contrEquiv1 (mk wf) K rfl rfl).symm k) = ix2 p k := funext fun ax => Fin.ext (by
    match ax with
    | ⟨0, _⟩ => exact lhs_row wf _ _
    | ⟨1, _⟩ => exact (lhs_col wf _ _).trans hk)
  have er : (mk wf).rhsIdx (ix2 p c) ((contrEquiv1 (mk wf) K rfl rfl).symm k) = ix2 k c := funext fun ax => Fin.ext (by
    match ax with
    | ⟨0, _⟩ => exact (rhs_row wf _ _).trans hk
    | ⟨1, _⟩ => exact rhs_col wf _ _)
  rw [el, er]

end

/-- The contraction of a plain product at the entry `(p, c)` is the sum over the shared axis's coordinate. -/
theorem sum_plain {a K b : ℕ} (D : DotDims ⟨2, ![a, K]⟩ ⟨2, ![K, b]⟩ ⟨2, ![a, b]⟩) (h : IsPlain D)
    (x : (⟨2, ![a, K]⟩ : Shape).Idx → EReal) (y : (⟨2, ![K, b]⟩ : Shape).Idx → EReal) (p : Fin a) (c : Fin b) :
    ∑ k : D.contr.Idx, x (D.lhsIdx (ix2 p c) k) * y (D.rhsIdx (ix2 p c) k) = ∑ k : Fin K, x (ix2 p k) * y (ix2 k c) := by
  obtain ⟨lc, rc, ln, rn, lb, rb, wf⟩ := D
  obtain ⟨h1, h2, h3, h4, h5, h6⟩ := h
  dsimp only at h1 h2 h3 h4 h5 h6
  subst h1 h2 h3 h4 h5 h6
  exact sum_mk wf x y p c

/-- A kernel's matrix product into the zero accumulator, at an entry. -/
theorem matmul_zero_apply {a K b : ℕ} {φ₁ φ₂ : FTy} (D : DotDims ⟨2, ![a, K]⟩ ⟨2, ![K, b]⟩ ⟨2, ![a, b]⟩) (h : IsPlain D)
    (prec : Option ContractPrecision) (x : FVec Ideal ⟨2, ![a, K]⟩ φ₁) (y : FVec Ideal ⟨2, ![K, b]⟩ φ₂) (p : Fin a) (c : Fin b) :
    FloatOps.matmul D prec x y (constant ⟨2, ![a, b]⟩ .f32 0x00000000#32) (ix2 p c) = ∑ k : Fin K, x (ix2 p k) * y (ix2 k c) :=
  (Ideal.matmul_constant_zero_apply D prec x y (ix2 p c)).trans (sum_plain D h x y p c)

/-- The host's `dot_general`, at an entry, whatever its schedule key. -/
theorem dotGeneral_apply {a K b : ℕ} {φ₁ φ₂ : FTy} (D : DotDims ⟨2, ![a, K]⟩ ⟨2, ![K, b]⟩ ⟨2, ![a, b]⟩) (h : IsPlain D)
    (prec : Option ContractPrecision) (sched : HostSchedule) (x : FVec Ideal ⟨2, ![a, K]⟩ φ₁) (y : FVec Ideal ⟨2, ![K, b]⟩ φ₂)
    (p : Fin a) (c : Fin b) :
    FloatOps.dotGeneral D prec sched x y (ix2 p c) = ∑ k : Fin K, x (ix2 p k) * y (ix2 k c) :=
  (Ideal.dotGeneral_apply D prec sched x y (ix2 p c)).trans (sum_plain D h x y p c)

end Cert.LibPlainDot

end
-- ==== Proof.LibLayout.lean ====
/-
  Layout operations of small shapes read at an index, in the forms a row-wise normalisation needs: a vector made a
  column and a column spread over the columns of a matrix (the two halves of a `keepdims` reduction's broadcast), a
  row vector made a one-row matrix and spread over the rows, and a scalar spread over any shape. Each says which
  operand entry the result reads at `(p, c)`.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape (`broadcast_in_dim` with no axis) reads the scalar everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector `[b]` made the one row of `[1, b]` (`broadcast_in_dim` on axis 1) reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` spread over `a` rows (`broadcast_in_dim` on axes 0, 1) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` (`broadcast_in_dim` on axis 0) reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` spread over `b` columns (`broadcast_in_dim` on axes 0, 1) reads, at `(p, c)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.LibRowIndex.lean ====
/-
  ROW INDEXING READ AT AN INDEX. StableHLO's gather and scatter dimension numbers, opened for the three shapes in
  which an integer column `idx : [n, 1]` selects rows of a table:

  * "take rows" of a matrix `x : [A, B]` (offset axis 1, collapsed axis 0, start index map [0], index vector axis 1,
    slice sizes [1, B]): result element `(r, c)` is `x` at row `idx[r, 0]` — the word read as a SIGNED integer and
    clamped into `[0, A − 1]` — and column `c` (`rowGather_apply`);
  * "take entries" of a vector `x : [A]` (no offset axis, collapsed axis 0, start index map [0], index vector axis 1,
    slice sizes [1]): result element `r` is `x` at `idx[r, 0]`, read signed and clamped into `[0, A − 1]`
    (`vecGather_apply`);
  * "add into rows" of a matrix `[A, B]` from updates `[n, B]` (update window axis 1, inserted window axis 0,
    scatter-dims-to-operand-dims [0], index vector axis 1): update element `(r, c)` lands at operand element `(a, b)`
    exactly when the word `idx[r, 0]`, read as a signed integer and NOT clamped, is `a`, and `c = b`; an update whose
    row word is negative or at least `A` lands nowhere (`rowScatter_resultIdx_iff`, `rowScatter_resultIdx`,
    `rowScatter_resultIdx_none`).

  Every statement is generic in the sizes `A`, `B`, `n`, the word width `w` and the element type. The dimension
  numbers are a variable record `d` with one equation per field, so that at a record written out field by field every
  hypothesis is closed by `rfl`. The index column is read at `ix2 (j 0) 0`: row `j 0` of the result (or update)
  index, column `0`.
-/
import Idealize.ShloMosaic.Lib.ValueIdx
import Idealize.ShloMosaic.PureOps.ShapeOps

namespace Cert.LibRowIndex

open Idealize.ShloMosaic Idealize.ShloMosaic.ValueIdx

variable {α : Type}

/-- On two axes, axis 1 is not in the list `[0]`. -/
private theorem one_not_mem_zero : (1 : Fin 2) ∉ [(0 : Fin 2)] := by decide
/-- On two axes, axis 0 is not in the list `[1]`. -/
private theorem zero_not_mem_one : (0 : Fin 2) ∉ [(1 : Fin 2)] := by decide

/-! ## Take rows of a matrix -/

/-- The dimension numbers of "take rows": operand `[A, B]`, start indices `[n, 1]`, result `[n, B]`. -/
abbrev rowGatherDims (A B n : Nat)
    (wf : GatherDims.WF ⟨2, ![A, B]⟩ ⟨2, ![n, 1]⟩ ⟨2, ![n, B]⟩ [1] [0] [] [0] [] 1 ![1, B]) :
    GatherDims ⟨2, ![A, B]⟩ ⟨2, ![n, 1]⟩ ⟨2, ![n, B]⟩ where
  offsetDims := [1]
  collapsedSliceDims := [0]
  operandBatchingDims := []
  startIndicesBatchingDims := []
  startIndexMap := [0]
  indexVectorDim := 1
  sliceSizes := ![1, B]
  wf := wf

/-- The row gather at `(r, c)`, for the record built from its well-formedness proof. -/
theorem rowGatherDims_apply {A B n w : Nat} (hA : 0 < A)
    (wf : GatherDims.WF ⟨2, ![A, B]⟩ ⟨2, ![n, 1]⟩ ⟨2, ![n, B]⟩ [1] [0] [] [0] [] 1 ![1, B])
    (x : (⟨2, ![A, B]⟩ : Shape).Idx → α) (idx : IVec ⟨2, ![n, 1]⟩ w) (j : (⟨2, ![n, B]⟩ : Shape).Idx) :
    Host.gather (rowGatherDims A B n wf) x idx j
      = x (ix2 ⟨min (idx (ix2 (j 0) 0)).toInt.toNat (A - 1), by omega⟩ (j 1)) := by
  unfold Host.gather
  congr 1
  funext a
  refine Fin.ext ?_
  match a with
  | ⟨0, _⟩ =>
    show (rowGatherDims A B n wf).start j idx 0 + (rowGatherDims A B n wf).batchCoord j 0
      + (rowGatherDims A B n wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims A B n wf).startIndexMap from List.mem_singleton.mpr rfl)]
    have hsi : (rowGatherDims A B n wf).siIdx j ⟨List.idxOf (0 : Fin 2) (rowGatherDims A B n wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show (rowGatherDims A B n wf).start j idx 1 + (rowGatherDims A B n wf).batchCoord j 1
      + (rowGatherDims A B n wf).offCoord j 1 = (j 1).val
    rw [GatherDims.batchCoord_eq_zero _ _ _ List.not_mem_nil]
    unfold GatherDims.start
    rw [dif_neg (show (1 : Fin 2) ∉ (rowGatherDims A B n wf).startIndexMap from one_not_mem_zero)]
    simp only [Nat.add_zero, Nat.zero_add]
    unfold GatherDims.offCoord
    rw [dif_pos ((GatherDims.mem_sKept _ _).mpr ⟨one_not_mem_zero, List.not_mem_nil⟩)]
    rfl

/-- TAKE ROWS, READ AT `(r, c)`: the operand at row `idx[r, 0]` — read signed and clamped into `[0, A − 1]` — and
    column `c`. -/
theorem rowGather_apply {A B n w : Nat} (hA : 0 < A)
    (d : GatherDims ⟨2, ![A, B]⟩ ⟨2, ![n, 1]⟩ ⟨2, ![n, B]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, B])
    (x : (⟨2, ![A, B]⟩ : Shape).Idx → α) (idx : IVec ⟨2, ![n, 1]⟩ w) (j : (⟨2, ![n, B]⟩ : Shape).Idx) :
    Host.gather d x idx j
      = x (ix2 ⟨min (idx (ix2 (j 0) 0)).toInt.toNat (A - 1), by omega⟩ (j 1)) := by
  obtain ⟨od, cs, ob, sb, sm, iv, ss, wf⟩ := d
  dsimp only at hod hcs hob hsb hsm hiv hss
  subst hod hcs hob hsb hsm hiv hss
  exact rowGatherDims_apply hA wf x idx j

/-! ## Take entries of a vector -/

/-- The dimension numbers of "take entries": operand `[A]`, start indices `[n, 1]`, result `[n]`. -/
abbrev vecGatherDims (A n : Nat)
    (wf : GatherDims.WF ⟨1, ![A]⟩ ⟨2, ![n, 1]⟩ ⟨1, ![n]⟩ [] [0] [] [0] [] 1 ![1]) :
    GatherDims ⟨1, ![A]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- The vector gather at `r`, for the record built from its well-formedness proof. -/
theorem vecGatherDims_apply {A n w : Nat} (hA : 0 < A)
    (wf : GatherDims.WF ⟨1, ![A]⟩ ⟨2, ![n, 1]⟩ ⟨1, ![n]⟩ [] [0] [] [0] [] 1 ![1])
    (x : (⟨1, ![A]⟩ : Shape).Idx → α) (idx : IVec ⟨2, ![n, 1]⟩ w) (j : (⟨1, ![n]⟩ : Shape).Idx) :
    Host.gather (vecGatherDims A n wf) x idx j
      = x (ix1 ⟨min (idx (ix2 (j 0) 0)).toInt.toNat (A - 1), by omega⟩) := by
  unfold Host.gather
  congr 1
  funext a
  obtain rfl : a = 0 := Subsingleton.elim _ _
  refine Fin.ext ?_
  show (vecGatherDims A n wf).start j idx 0 + (vecGatherDims A n wf).batchCoord j 0
    + (vecGatherDims A n wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims A n wf).startIndexMap from List.mem_singleton.mpr rfl)]
  have hsi : (vecGatherDims A n wf).siIdx j ⟨List.idxOf (0 : Fin 1) (vecGatherDims A n wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- TAKE ENTRIES, READ AT `r`: the operand at `idx[r, 0]`, read signed and clamped into `[0, A − 1]`. -/
theorem vecGather_apply {A n w : Nat} (hA : 0 < A)
    (d : GatherDims ⟨1, ![A]⟩ ⟨2, ![n, 1]⟩ ⟨1, ![n]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![A]⟩ : Shape).Idx → α) (idx : IVec ⟨2, ![n, 1]⟩ w) (j : (⟨1, ![n]⟩ : Shape).Idx) :
    Host.gather d x idx j = x (ix1 ⟨min (idx (ix2 (j 0) 0)).toInt.toNat (A - 1), by omega⟩) := by
  obtain ⟨od, cs, ob, sb, sm, iv, ss, wf⟩ := d
  dsimp only at hod hcs hob hsb hsm hiv hss
  subst hod hcs hob hsb hsm hiv hss
  exact vecGatherDims_apply hA wf x idx j

/-! ## Add into rows of a matrix -/

/-- The dimension numbers of "add into rows": operand `[A, B]`, scatter indices `[n, 1]`, updates `[n, B]`. -/
abbrev rowScatterDims (A B n : Nat)
    (wf : ScatterDims.WF ⟨2, ![A, B]⟩ ⟨2, ![n, 1]⟩ ⟨2, ![n, B]⟩ [1] [0] [0] 1) :
    ScatterDims ⟨2, ![A, B]⟩ ⟨2, ![n, 1]⟩ ⟨2, ![n, B]⟩ where
  updateWindowDims := [1]
  insertedWindowDims := [0]
  scatterDimsToOperandDims := [0]
  indexVectorDim := 1
  wf := wf

section RowScatter
variable {A B n w : Nat} (wf : ScatterDims.WF ⟨2, ![A, B]⟩ ⟨2, ![n, 1]⟩ ⟨2, ![n, B]⟩ [1] [0] [0] 1)
  (idx : IVec ⟨2, ![n, 1]⟩ w) (j : (⟨2, ![n, B]⟩ : Shape).Idx)

/-- On the row axis the window starts at the index word of the update's row, read signed. -/
theorem rowScatterDims_start0 : (rowScatterDims A B n wf).start j idx 0 = (idx (ix2 (j 0) 0)).toInt := by
  unfold ScatterDims.start
  rw [dif_pos (show (0 : Fin 2) ∈ (rowScatterDims A B n wf).scatterDimsToOperandDims from List.mem_singleton.mpr rfl)]
  have hsi : (rowScatterDims A B n wf).siIdx j ⟨List.idxOf (0 : Fin 2) (rowScatterDims A B n wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the window starts at 0. -/
theorem rowScatterDims_start1 : (rowScatterDims A B n wf).start j idx 1 = 0 := by
  unfold ScatterDims.start
  rw [dif_neg (show (1 : Fin 2) ∉ (rowScatterDims A B n wf).scatterDimsToOperandDims from one_not_mem_zero)]

/-- The row axis is an inserted axis: the window coordinate there is 0. -/
theorem rowScatterDims_window0 : (rowScatterDims A B n wf).window j 0 = 0 := by
  unfold ScatterDims.window
  rw [dif_neg (show (0 : Fin 2) ∉ (rowScatterDims A B n wf).sKept from by
    simp [ScatterDims.sKept, Shape.kept, List.mem_filter])]

/-- On the column axis the window coordinate is the update's column. -/
theorem rowScatterDims_window1 : (rowScatterDims A B n wf).window j 1 = (j 1).val := by
  unfold ScatterDims.window
  rw [dif_pos (show (1 : Fin 2) ∈ (rowScatterDims A B n wf).sKept from by
    simp [ScatterDims.sKept, Shape.kept, List.mem_filter, List.mem_finRange])]
  rfl

/-- An update's landing index is inside the operand on every axis exactly when its row word, read signed, is a row
    number: at least 0 and below `A`. (The column is the update's own, always inside.) -/
theorem rowScatterDims_inside_iff :
    (∀ a, 0 ≤ (rowScatterDims A B n wf).start j idx a + (rowScatterDims A B n wf).window j a ∧
        (rowScatterDims A B n wf).start j idx a + (rowScatterDims A B n wf).window j a
          < (((⟨2, ![A, B]⟩ : Shape).size a : Nat) : Int))
      ↔ 0 ≤ (idx (ix2 (j 0) 0)).toInt ∧ (idx (ix2 (j 0) 0)).toInt < (A : Int) := by
  have hs0 := rowScatterDims_start0 wf idx j
  have hs1 := rowScatterDims_start1 wf idx j
  have hw0 := rowScatterDims_window0 wf j
  have hw1 := rowScatterDims_window1 wf j
  constructor
  · intro hall
    have h0 := hall 0
    rw [hs0, hw0] at h0
    change _ ∧ _ < ((A : Nat) : Int) at h0
    omega
  · intro h a
    match a with
    | ⟨0, _⟩ =>
      show 0 ≤ (rowScatterDims A B n wf).start j idx 0 + ((rowScatterDims A B n wf).window j 0 : Nat) ∧
        (rowScatterDims A B n wf).start j idx 0 + ((rowScatterDims A B n wf).window j 0 : Nat) < ((A : Nat) : Int)
      rw [hs0, hw0]
      omega
    | ⟨1, _⟩ =>
      show 0 ≤ (rowScatterDims A B n wf).start j idx 1 + ((rowScatterDims A B n wf).window j 1 : Nat) ∧
        (rowScatterDims A B n wf).start j idx 1 + ((rowScatterDims A B n wf).window j 1 : Nat) < ((B : Nat) : Int)
      rw [hs1, hw1]
      have := idx2_lt1 j
      omega

/-- Where an update lands, for the record built from its well-formedness proof. -/
theorem rowScatterDims_resultIdx_iff (i : (⟨2, ![A, B]⟩ : Shape).Idx) :
    (rowScatterDims A B n wf).resultIdx? j idx = some i
      ↔ (idx (ix2 (j 0) 0)).toInt = ((i 0).val : Int) ∧ (j 1).val = (i 1).val := by
  have hs0 := rowScatterDims_start0 wf idx j
  have hs1 := rowScatterDims_start1 wf idx j
  have hw0 := rowScatterDims_window0 wf j
  have hw1 := rowScatterDims_window1 wf j
  unfold ScatterDims.resultIdx?
  constructor
  · intro h
    split at h
    · rename_i hall
      have hi := Option.some.inj h
      subst hi
      have h0 := ((rowScatterDims_inside_iff wf idx j).mp hall).1
      refine ⟨?_, ?_⟩
      · show _ = ((((rowScatterDims A B n wf).start j idx 0 + ((rowScatterDims A B n wf).window j 0 : Nat)).toNat : Nat) : Int)
        rw [hs0, hw0]
        omega
      · show _ = ((rowScatterDims A B n wf).start j idx 1 + ((rowScatterDims A B n wf).window j 1 : Nat)).toNat
        rw [hs1, hw1]
        omega
    · exact absurd h (by simp)
  · rintro ⟨h0, h1⟩
    have hi0 := idx2_lt0 i
    rw [dif_pos ((rowScatterDims_inside_iff wf idx j).mpr (by omega))]
    congr 1
    funext a
    refine Fin.ext ?_
    match a with
    | ⟨0, _⟩ =>
      show ((rowScatterDims A B n wf).start j idx 0 + ((rowScatterDims A B n wf).window j 0 : Nat)).toNat = (i 0).val
      rw [hs0, hw0, h0]
      omega
    | ⟨1, _⟩ =>
      show ((rowScatterDims A B n wf).start j idx 1 + ((rowScatterDims A B n wf).window j 1 : Nat)).toNat = (i 1).val
      rw [hs1, hw1, h1]
      omega

/-- When an update is dropped, for the record built from its well-formedness proof. -/
theorem rowScatterDims_resultIdx_none :
    (rowScatterDims A B n wf).resultIdx? j idx = none
      ↔ (idx (ix2 (j 0) 0)).toInt < 0 ∨ (A : Int) ≤ (idx (ix2 (j 0) 0)).toInt := by
  unfold ScatterDims.resultIdx?
  constructor
  · intro h
    split at h
    · exact absurd h (by simp)
    · rename_i hall
      by_contra hc
      exact hall ((rowScatterDims_inside_iff wf idx j).mpr (by omega))
  · intro h
    rw [dif_neg (fun hall => by have := (rowScatterDims_inside_iff wf idx j).mp hall; omega)]

end RowScatter

/-- ADD INTO ROWS, WHERE AN UPDATE LANDS: update element `(r, c)` lands at operand element `i` exactly when the row
    word `idx[r, 0]`, read signed (not clamped), is `i`'s row, and `c` is `i`'s column. -/
theorem rowScatter_resultIdx_iff {A B n w : Nat}
    (d : ScatterDims ⟨2, ![A, B]⟩ ⟨2, ![n, 1]⟩ ⟨2, ![n, B]⟩)
    (huw : d.updateWindowDims = [1]) (hiw : d.insertedWindowDims = [0]) (hsd : d.scatterDimsToOperandDims = [0])
    (hiv : d.indexVectorDim = 1)
    (idx : IVec ⟨2, ![n, 1]⟩ w) (j : (⟨2, ![n, B]⟩ : Shape).Idx) (i : (⟨2, ![A, B]⟩ : Shape).Idx) :
    d.resultIdx? j idx = some i ↔ (idx (ix2 (j 0) 0)).toInt = ((i 0).val : Int) ∧ (j 1).val = (i 1).val := by
  obtain ⟨uw, iw, sd, iv, wf⟩ := d
  dsimp only at huw hiw hsd hiv
  subst huw hiw hsd hiv
  exact rowScatterDims_resultIdx_iff wf idx j i

/-- The forward half: an update that lands at `i` has `i`'s row as its row word (read signed) and `i`'s column as its
    column. -/
theorem rowScatter_resultIdx {A B n w : Nat}
    (d : ScatterDims ⟨2, ![A, B]⟩ ⟨2, ![n, 1]⟩ ⟨2, ![n, B]⟩)
    (huw : d.updateWindowDims = [1]) (hiw : d.insertedWindowDims = [0]) (hsd : d.scatterDimsToOperandDims = [0])
    (hiv : d.indexVectorDim = 1)
    (idx : IVec ⟨2, ![n, 1]⟩ w) (j : (⟨2, ![n, B]⟩ : Shape).Idx) (i : (⟨2, ![A, B]⟩ : Shape).Idx)
    (h : d.resultIdx? j idx = some i) :
    (idx (ix2 (j 0) 0)).toInt = ((i 0).val : Int) ∧ (j 1).val = (i 1).val :=
  (rowScatter_resultIdx_iff d huw hiw hsd hiv idx j i).mp h

/-- ADD INTO ROWS, WHEN AN UPDATE IS DROPPED: exactly when its row word, read signed, is negative or at least `A`. -/
theorem rowScatter_resultIdx_none {A B n w : Nat}
    (d : ScatterDims ⟨2, ![A, B]⟩ ⟨2, ![n, 1]⟩ ⟨2, ![n, B]⟩)
    (huw : d.updateWindowDims = [1]) (hiw : d.insertedWindowDims = [0]) (hsd : d.scatterDimsToOperandDims = [0])
    (hiv : d.indexVectorDim = 1)
    (idx : IVec ⟨2, ![n, 1]⟩ w) (j : (⟨2, ![n, B]⟩ : Shape).Idx) :
    d.resultIdx? j idx = none ↔ (idx (ix2 (j 0) 0)).toInt < 0 ∨ (A : Int) ≤ (idx (ix2 (j 0) 0)).toInt := by
  obtain ⟨uw, iw, sd, iv, wf⟩ := d
  dsimp only at huw hiw hsd hiv
  subst huw hiw hsd hiv
  exact rowScatterDims_resultIdx_none wf idx j

end Cert.LibRowIndex
-- ==== Proof.LibScaledSum.lean ====
/-
  A common non-negative finite factor leaves a finite sum of extended reals: for `0 ≤ q < ⊤` and ANY summands
  (infinite ones included) `(Σ t) · q = Σ (t · q)` — multiplication by such a `q` distributes over the addition of
  the extended reals, although multiplication by a negative number or by `⊤` does not. With it: the reciprocal
  square root of anything at least 1 is a non-negative real number, and so is a value chosen between such a root and
  the zero word.
-/
import Idealize.ShloMosaic.PureOps.Ideal
import Idealize.ShloMosaic.PureOps.Ideal.Laws
import Idealize.ShloMosaic.Lib.IdealHost

namespace Cert.LibScaledSum

open Idealize.ShloMosaic

/-- A factor `0 ≤ q < ⊤` taken out of a finite sum of extended reals. -/
theorem sum_mul_of_nonneg_ne_top {ι : Type*} (S : Finset ι) (t : ι → EReal) {q : EReal} (h0 : 0 ≤ q) (ht : q ≠ ⊤) :
    (∑ j ∈ S, t j) * q = ∑ j ∈ S, t j * q := by
  classical
  induction S using Finset.induction_on with
  | empty => simp
  | insert a S ha ih =>
    rw [Finset.sum_insert ha, Finset.sum_insert ha, EReal.right_distrib_of_nonneg_of_ne_top h0 ht, ih]

/-- The same with the zero the host's accumulating scatter starts from. -/
theorem zero_add_sum_mul {ι : Type*} (S : Finset ι) (t : ι → EReal) {q : EReal} (h0 : 0 ≤ q) (ht : q ≠ ⊤) :
    (0 + ∑ j ∈ S, t j) * q = 0 + ∑ j ∈ S, t j * q := by
  rw [zero_add, zero_add, sum_mul_of_nonneg_ne_top S t h0 ht]

/-- The reciprocal square root of an extended real at least 1 is a non-negative real. -/
theorem rsqrt_range {y : EReal} (hy : 1 ≤ y) : 0 ≤ Ideal.rsqrt y ∧ Ideal.rsqrt y ≠ ⊤ := by
  induction y using EReal.rec with
  | bot => exact absurd (le_bot_iff.mp hy) (by simpa using EReal.coe_ne_bot (1 : ℝ))
  | top => rw [Ideal.rsqrt_top]; exact ⟨le_refl _, EReal.zero_ne_top⟩
  | coe r =>
    have hr : (1 : ℝ) ≤ r := by exact_mod_cast hy
    rw [Ideal.rsqrt_coe, if_neg (by linarith), if_neg (by linarith)]
    exact ⟨by exact_mod_cast (inv_nonneg.mpr (Real.sqrt_nonneg r)), EReal.coe_ne_top _⟩

/-- A value chosen by a bit between the reciprocal square root of `max d 1` and zero is a non-negative real,
    whatever the extended real `d`. -/
theorem select_rsqrt_range (b : BitVec 1) (d : EReal) :
    0 ≤ Scalar.select b (Ideal.rsqrt (max d (Ideal.ofBits .f32 0x3F800000#32))) (Ideal.ofBits .f32 0x00000000#32)
    ∧ Scalar.select b (Ideal.rsqrt (max d (Ideal.ofBits .f32 0x3F800000#32))) (Ideal.ofBits .f32 0x00000000#32) ≠ ⊤ := by
  rw [Ideal.ofBits_one_f32, Ideal.ofBits_zero_f32]
  unfold Scalar.select
  split
  · exact rsqrt_range (le_max_right d 1)
  · exact ⟨le_refl _, EReal.zero_ne_top⟩

end Cert.LibScaledSum
-- ==== Proof.LibScatterAdd.lean ====
/-
  The host's accumulating scatter on the extended reals, read at an element: the operand's element plus the sum of
  the updates whose result index is that element — the landing set of the element, a finite set of update indices.
-/
import Idealize.ShloMosaic.PureOps.Ideal
import Idealize.ShloMosaic.PureOps.Contract

noncomputable section

namespace Cert.LibScatterAdd

open Idealize.ShloMosaic

variable {s si su : Shape} {w : Nat} {φ : FTy}

/-- The update indices that land on operand element `i`. -/
def landing (d : ScatterDims s si su) (idx : IVec si w) (i : s.Idx) : Finset su.Idx :=
  Finset.univ.filter (fun j => d.resultIdx? j idx = some i)

theorem mem_landing (d : ScatterDims s si su) (idx : IVec si w) (i : s.Idx) (j : su.Idx) :
    j ∈ landing d idx i ↔ d.resultIdx? j idx = some i := by
  unfold landing; rw [Finset.mem_filter]; exact ⟨fun h => h.2, fun h => ⟨Finset.mem_univ _, h⟩⟩

/-- The accumulating scatter at an element: the operand's element plus the updates landing there. -/
theorem scatterAdd_apply (d : ScatterDims s si su) (x : FVec Ideal s φ) (idx : IVec si w) (upd : FVec Ideal su φ) (i : s.Idx) :
    Host.scatterAdd d x idx upd i = x i + ∑ j ∈ landing d idx i, upd j := rfl

end Cert.LibScatterAdd

end
-- ==== Proof.RefRead.lean ====
/-
  THE LAYER'S STAGES READ AT AN INDEX, on the extended reals. Each stage of the message-passing layer (a graph
  convolution with self loops and symmetric normalisation, followed by a dense layer) as the formula of one entry:

    col v [e, 0]   = v[e]                                   the index words as a column;
    nrm v [e, 0]   = nrmW (v[e])                            the start word a gather reads: 50000 added to a negative word;
    hid [p, c]     = Σₖ x[p, k] · W1[k, c]                  over the 256 input features;
    wgt [e]        = dis[row(src e)] · dis[row(dst e)]      where row(·) = rowOf (nrmW ·): the start word read signed
                                                            and clamped into 0 … 49999;
    msg [e, c]     = hid[row(src e), c] · wgt[e];
    agg [i]        = 0 + Σ of msg[j] over the update indices j whose dst word lands on entry i (the landing set);
    out [n, o]     = Σₖ max (agg[n, k] + b1[k]) 0 · Wf[k, o] + bf[o]   over the 300 hidden features;
    dis [i]        is chosen by a bit between the reciprocal square root of max (deg[i]) 1 and 0, so it is a
                   non-negative real number (`dis_range`);
  and an update index that lands on entry (n, k) has n as the row of its dst word and k as its column
  (`landing_row`): the word read signed is n itself, so it is not negative, nothing is added to it and the clamp
  leaves it.
-/
import proofs.«105829_j2448131359246_2_alg».proof.Proof.Spec
import proofs.«105829_j2448131359246_2_alg».proof.Proof.LibPlainDot
import proofs.«105829_j2448131359246_2_alg».proof.Proof.LibLayout
import proofs.«105829_j2448131359246_2_alg».proof.Proof.LibRowIndex
import proofs.«105829_j2448131359246_2_alg».proof.Proof.LibScaledSum
import proofs.«105829_j2448131359246_2_alg».proof.Proof.LibScatterAdd
import Idealize.ShloMosaic.Lib.Affine

noncomputable section

namespace Cert.Gcn

open Cert.ReferenceIdeal Cert.ReferenceIdeal.Facts₀ Cert.ReferenceIdeal.Facts Idealize.ShloMosaic Idealize.ShloMosaic.TcCoe
open Idealize.ShloMosaic.ValueIdx

/-- A gather's start word: 50000 added to a negative word. -/
def nrmW (v : BitVec 32) : BitVec 32 := Scalar.select (IntOp.cmpi .slt v 0#32) (IntOp.addi v 50000#32) v

/-- The row a gather reads: the word read signed, clamped into 0 … 49999. -/
def rowOf (v : BitVec 32) : Fin 50000 := ⟨min v.toInt.toNat (50000 - 1), by omega⟩

section AnyF
variable {F : FTy → Type} [FloatOps F]

/-- The index words as a column: entry `(e, 0)` is word `e`. -/
theorem col_apply (v : (⟨S850000, .i32⟩ : BufTy).Contents (Elt F)) (e : Fin 850000) (u : Fin 1) :
    col (F := F) v (ix2 e u) = v (ix1 e) :=
  Cert.LibLayout.broadcastInDim_a_a1_apply v bcast_S850000_S850000x1_0 e u

/-- The start words as a column: entry `(e, 0)` is word `e` with 50000 added when it is negative. -/
theorem nrm_apply (v : (⟨S850000, .i32⟩ : BufTy).Contents (Elt F)) (e : Fin 850000) (u : Fin 1) :
    nrm (F := F) v (ix2 e u) = nrmW (v (ix1 e)) := by
  unfold nrm
  rw [Cert.LibLayout.broadcastInDim_a_a1_apply _ bcast_S850000_S850000x1_0 e u]
  rfl

end AnyF

/-- The hidden features at `(p, c)`: the sum over the 256 input features of `x[p, k] · W1[k, c]`. -/
theorem hid_apply (x : (⟨S50000x256, .f32⟩ : BufTy).Contents (Elt Ideal)) (w : (⟨S256x300, .f32⟩ : BufTy).Contents (Elt Ideal))
    (p : Fin 50000) (c : Fin 300) :
    hid (F := Ideal) x w (ix2 p c) = ∑ k : Fin 256, x (ix2 p k) * w (ix2 k c) :=
  Cert.LibPlainDot.dotGeneral_apply dot_S50000x256_S256x300_S50000x300_1_0_0_1_n_n ⟨rfl, rfl, rfl, rfl, rfl, rfl⟩ none _ x w p c

/-- The vector gather of `dis` at start words `nrm v`: entry `e` is `dis` at the row the start word of `e` selects. -/
theorem gather_dis_apply (ei : (⟨S2x800000, .i32⟩ : BufTy).Contents (Elt Ideal)) (v : (⟨S850000, .i32⟩ : BufTy).Contents (Elt Ideal))
    (e : Fin 850000) :
    Host.gather gather_S50000_S850000x1_S850000_n_0_n_n_0_1_1 (dis (F := Ideal) ei) (nrm (F := Ideal) v) (ix1 e)
      = dis (F := Ideal) ei (ix1 (rowOf (nrmW (v (ix1 e))))) := by
  rw [Cert.LibRowIndex.vecGather_apply (by decide) gather_S50000_S850000x1_S850000_n_0_n_n_0_1_1 rfl rfl rfl rfl rfl rfl rfl]
  show dis (F := Ideal) ei (ix1 (rowOf (nrm (F := Ideal) v (ix2 e 0)))) = _
  rw [nrm_apply]

/-- The weight of index word `e`: `dis` at the row its src word selects times `dis` at the row its dst word selects. -/
theorem wgt_apply (ei : (⟨S2x800000, .i32⟩ : BufTy).Contents (Elt Ideal)) (e : Fin 850000) :
    wgt (F := Ideal) ei (ix1 e)
      = dis (F := Ideal) ei (ix1 (rowOf (nrmW (srcW (F := Ideal) ei (ix1 e)))))
        * dis (F := Ideal) ei (ix1 (rowOf (nrmW (dstW (F := Ideal) ei (ix1 e))))) := by
  unfold wgt
  rw [mulf_apply, gather_dis_apply, gather_dis_apply]

/-- The message at `(e, c)`: the hidden feature `c` of the row the src word of `e` selects, times the weight of `e`. -/
theorem msg_apply_ix (x : (⟨S50000x256, .f32⟩ : BufTy).Contents (Elt Ideal)) (ei : (⟨S2x800000, .i32⟩ : BufTy).Contents (Elt Ideal))
    (w : (⟨S256x300, .f32⟩ : BufTy).Contents (Elt Ideal)) (e : Fin 850000) (c : Fin 300) :
    msg (F := Ideal) x ei w (ix2 e c)
      = (∑ k : Fin 256, x (ix2 (rowOf (nrmW (srcW (F := Ideal) ei (ix1 e)))) k) * w (ix2 k c))
        * (dis (F := Ideal) ei (ix1 (rowOf (nrmW (srcW (F := Ideal) ei (ix1 e)))))
          * dis (F := Ideal) ei (ix1 (rowOf (nrmW (dstW (F := Ideal) ei (ix1 e)))))) := by
  unfold msg
  rw [mulf_apply,
    Cert.LibRowIndex.rowGather_apply (by decide) gather_S50000x300_S850000x1_S850000x300_1_0_n_n_0_1_1300 rfl rfl rfl rfl rfl rfl rfl,
    Cert.LibLayout.broadcastInDim_a1_ab_apply _ bcast_S850000x1_S850000x300_0_1 e c,
    Cert.LibLayout.broadcastInDim_a_a1_apply _ bcast_S850000_S850000x1_0 e 0,
    wgt_apply]
  show hid (F := Ideal) x w (ix2 (rowOf (nrm (F := Ideal) (srcW (F := Ideal) ei) (ix2 e 0))) c) * _ = _
  rw [nrm_apply, hid_apply]

/-- The same at an update index given as a function, read through its two coordinates. -/
theorem msg_apply (x : (⟨S50000x256, .f32⟩ : BufTy).Contents (Elt Ideal)) (ei : (⟨S2x800000, .i32⟩ : BufTy).Contents (Elt Ideal))
    (w : (⟨S256x300, .f32⟩ : BufTy).Contents (Elt Ideal)) (j : S850000x300.Idx) :
    msg (F := Ideal) x ei w j
      = (∑ k : Fin 256, x (ix2 (rowOf (nrmW (srcW (F := Ideal) ei (ix1 (j 0))))) k) * w (ix2 k (j 1)))
        * (dis (F := Ideal) ei (ix1 (rowOf (nrmW (srcW (F := Ideal) ei (ix1 (j 0))))))
          * dis (F := Ideal) ei (ix1 (rowOf (nrmW (dstW (F := Ideal) ei (ix1 (j 0))))))) :=
  (congrArg (msg (F := Ideal) x ei w) (eq_ix2 j)).trans (msg_apply_ix x ei w (j 0) (j 1))

/-- A splat scalar spread over any shape reads the extended real its word encodes. -/
theorem bcast_const_apply {t : Shape} (h : (⟨0, ![]⟩ : Shape).BroadcastsInDim t (![] : Fin 0 → Fin t.rank)) (b : BitVec 32) (j : t.Idx) :
    broadcastInDim t ![] h (constant (F := Ideal) S_ .f32 b) j = Ideal.ofBits .f32 b := by
  rw [Cert.LibLayout.broadcastInDim_scalar_apply, constant_apply]

/-- The host's reciprocal square root at an element. -/
theorem rsqrt_apply {s : Shape} (x : FVec Ideal s .f32) (i : s.Idx) : Host.rsqrt x i = Ideal.rsqrt (x i) := rfl

/-- The aggregate at entry `i`: zero plus the messages whose dst word lands on `i`. -/
theorem agg_apply (x : (⟨S50000x256, .f32⟩ : BufTy).Contents (Elt Ideal)) (ei : (⟨S2x800000, .i32⟩ : BufTy).Contents (Elt Ideal))
    (w : (⟨S256x300, .f32⟩ : BufTy).Contents (Elt Ideal)) (i : S50000x300.Idx) :
    agg (F := Ideal) x ei w i
      = 0 + ∑ j ∈ Cert.LibScatterAdd.landing scatter_S50000x300_S850000x1_S850000x300_1_0_0_1
          (col (F := Ideal) (dstW (F := Ideal) ei)) i, msg (F := Ideal) x ei w j := by
  unfold agg
  rw [Cert.LibScatterAdd.scatterAdd_apply, bcast_const_apply, Ideal.ofBits_zero_f32]

/-- The result at `(n, o)`: the sum over the 300 hidden features of `max (agg[n, k] + b1[k]) 0 · Wf[k, o]`, plus `bf[o]`. -/
theorem out_apply (x : (⟨S50000x256, .f32⟩ : BufTy).Contents (Elt Ideal)) (ei : (⟨S2x800000, .i32⟩ : BufTy).Contents (Elt Ideal))
    (w : (⟨S256x300, .f32⟩ : BufTy).Contents (Elt Ideal)) (b1 : (⟨S300, .f32⟩ : BufTy).Contents (Elt Ideal))
    (wf : (⟨S300x2, .f32⟩ : BufTy).Contents (Elt Ideal)) (bf : (⟨S2, .f32⟩ : BufTy).Contents (Elt Ideal))
    (n : Fin 50000) (o : Fin 2) :
    out (F := Ideal) x ei w b1 wf bf (ix2 n o)
      = (∑ k : Fin 300, max (agg (F := Ideal) x ei w (ix2 n k) + b1 (ix1 k)) (Ideal.ofBits .f32 0x00000000#32) * wf (ix2 k o))
        + bf (ix1 o) := by
  unfold out
  rw [addf_apply,
    Cert.LibLayout.broadcastInDim_1b_ab_apply _ bcast_S1x2_S50000x2_0_1 n o,
    Cert.LibLayout.broadcastInDim_b_1b_apply bf bcast_S2_S1x2_1 0 o]
  refine congrArg (· + bf (ix1 o)) ?_
  refine (Cert.LibPlainDot.dotGeneral_apply dot_S50000x300_S300x2_S50000x2_1_0_0_1_n_n ⟨rfl, rfl, rfl, rfl, rfl, rfl⟩ none _ _ wf n o).trans ?_
  refine Finset.sum_congr rfl fun k _ => ?_
  rw [maximumf_apply, addf_apply,
    Cert.LibLayout.broadcastInDim_1b_ab_apply _ bcast_S1x300_S50000x300_0_1 n k,
    Cert.LibLayout.broadcastInDim_b_1b_apply b1 bcast_S300_S1x300_1 0 k,
    bcast_const_apply]

/-- The normalisation factor at node `i`: where `deg[i] > 0` the reciprocal square root of `max (deg[i]) 1`, else 0. -/
theorem dis_apply (ei : (⟨S2x800000, .i32⟩ : BufTy).Contents (Elt Ideal)) (i : S50000.Idx) :
    dis (F := Ideal) ei i
      = Scalar.select (FloatOps.cmpf .ogt (deg (F := Ideal) ei i) (Ideal.ofBits .f32 0x00000000#32))
          (Ideal.rsqrt (max (deg (F := Ideal) ei i) (Ideal.ofBits .f32 0x3F800000#32))) (Ideal.ofBits .f32 0x00000000#32) := by
  unfold dis
  rw [select_apply, cmpf_apply, rsqrt_apply, maximumf_apply, id_eq, bcast_const_apply, bcast_const_apply]

/-- The normalisation factor is a non-negative real number at every node. -/
theorem dis_range (ei : (⟨S2x800000, .i32⟩ : BufTy).Contents (Elt Ideal)) (i : S50000.Idx) :
    0 ≤ dis (F := Ideal) ei i ∧ dis (F := Ideal) ei i ≠ ⊤ := by
  rw [dis_apply]
  exact Cert.LibScaledSum.select_rsqrt_range _ _

/-- An update index landing on entry `(n, k)` has `n` as the row its dst word selects and `k` as its column: the dst
    word read signed is `n`, not negative, so nothing is added to it and the clamp into 0 … 49999 leaves it. -/
theorem landing_row (ei : (⟨S2x800000, .i32⟩ : BufTy).Contents (Elt Ideal)) (n : Fin 50000) (k : Fin 300) (j : S850000x300.Idx)
    (h : j ∈ Cert.LibScatterAdd.landing scatter_S50000x300_S850000x1_S850000x300_1_0_0_1
      (col (F := Ideal) (dstW (F := Ideal) ei)) (ix2 n k)) :
    rowOf (nrmW (dstW (F := Ideal) ei (ix1 (j 0)))) = n ∧ j 1 = k := by
  have h1 := (Cert.LibScatterAdd.mem_landing _ _ _ _).mp h
  obtain ⟨hr, hc⟩ := Cert.LibRowIndex.rowScatter_resultIdx scatter_S50000x300_S850000x1_S850000x300_1_0_0_1 rfl rfl rfl rfl
    (col (F := Ideal) (dstW (F := Ideal) ei)) j (ix2 n k) h1
  have hv : (dstW (F := Ideal) ei (ix1 (j 0))).toInt = (n.val : Int) :=
    (congrArg BitVec.toInt (col_apply (F := Ideal) (dstW (F := Ideal) ei) (j 0) 0)).symm.trans hr
  have hn := n.isLt
  have hlt : ¬ (IntOp.cmpi .slt (dstW (F := Ideal) ei (ix1 (j 0))) 0#32 = 1#1) := by
    rw [IntOp.cmpi_slt, hv, BitVec.toInt_zero]; omega
  have hnw : nrmW (dstW (F := Ideal) ei (ix1 (j 0))) = dstW (F := Ideal) ei (ix1 (j 0)) := by
    unfold nrmW; rw [eq_zero_of_ne_one hlt, select_zero]
  refine ⟨?_, Fin.ext hc⟩
  rw [hnw]
  refine Fin.ext ?_
  show min (dstW (F := Ideal) ei (ix1 (j 0))).toInt.toNat (50000 - 1) = n.val
  rw [hv]; omega

end Cert.Gcn

end
-- ==== Proof.Bridge.lean ====
/-
  The two programs meet. The idealized kernel scales the hidden features by dis BEFORE the rows are gathered and added,
  and scales the sums by dis once more AFTER; the reference scales each gathered row by dis[src] · dis[dst]. A row lands
  on node n exactly when its dst word, read signed, is n — and then the gather of dis at that word reads dis[n]. So every
  term of the reference's sum over the landing set is the kernel's term times dis[n]; and dis[n], a non-negative real
  whatever the degree, leaves a sum of ANY extended reals. The two aggregates therefore agree with no finiteness
  assumed, and the dense layers after them are the same sums.
-/
import proofs.«105829_j2448131359246_2_alg».proof.Proof.KWhole
import proofs.«105829_j2448131359246_2_alg».proof.Proof.RefRead
import proofs.«105829_j2448131359246_2_alg».proof.Proof.LibScaledSum

noncomputable section

namespace Cert.Bridge

open Idealize.ShloMosaic Idealize.ShloMosaic.ValueIdx
open Cert.ReferenceIdeal Cert.Gcn

/-- A vector `[b]` cast to the one-row matrix `[1, b]` reads, at `(u, c)`, the vector at `c`. -/
theorem shapeCast_b_1b_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu, Nat.zero_mul, Nat.zero_add])

/-- A gather of rows at the normalised source words reads, in row e, the row of the clamped word. -/
theorem gather_rows (h : S50000x300.Idx → EReal) (ei) (j : S850000x300.Idx) :
    Host.gather gather_S50000x300_S850000x1_S850000x300_1_0_n_n_0_1_1300 h (nrm (F := Ideal) (srcW (F := Ideal) ei)) j
      = h (ix2 (rowOf (nrmW (srcW (F := Ideal) ei (ix1 (j 0))))) (j 1)) :=
  (Cert.LibRowIndex.rowGather_apply (by decide) gather_S50000x300_S850000x1_S850000x300_1_0_n_n_0_1_1300 rfl rfl rfl rfl rfl rfl rfl
      h (nrm (F := Ideal) (srcW (F := Ideal) ei)) j).trans
    (congrArg h (congrArg (fun r => ix2 r (j 1)) (Fin.ext
      (congrArg (fun v : BitVec 32 => min v.toInt.toNat (50000 - 1)) (nrm_apply (F := Ideal) (srcW (F := Ideal) ei) (j 0) 0)))))

/-- The kernel's aggregate, scaled once more by dis, is the reference's. -/
theorem agg_scaled (x ei w) (n : Fin 50000) (k : Fin 300) :
    Cert.KernelIdeal.WholeValue.gathered ei
        (Cert.KernelIdeal.RegionValue.hidden x w (shapeCast _ (dis (F := Ideal) ei) Cert.KernelIdeal.Facts₀.shapeCasts_S50000_S50000x1)) (ix2 n k)
      * dis (F := Ideal) ei (ix1 n)
    = agg (F := Ideal) x ei w (ix2 n k) := by
  refine Eq.trans ?_ (agg_apply x ei w (ix2 n k)).symm
  have hz : broadcastInDim S50000x300 ![] Facts₀.bcast_S_S50000x300 (constant (F := Ideal) S_ .f32 0x00000000#32) (ix2 n k) = (0 : EReal) :=
    (bcast_const_apply Facts₀.bcast_S_S50000x300 0x00000000#32 (ix2 n k)).trans Ideal.ofBits_zero_f32
  refine Eq.trans (congrArg (· * dis (F := Ideal) ei (ix1 n))
    ((Cert.LibScatterAdd.scatterAdd_apply (φ := .f32) scatter_S50000x300_S850000x1_S850000x300_1_0_0_1 _ _ _ (ix2 n k)).trans
      (congrArg (· + _) hz))) ?_
  refine Eq.trans (Cert.LibScaledSum.zero_add_sum_mul _ _ (dis_range ei _).1 (dis_range ei _).2) ?_
  refine congrArg (0 + ·) (Finset.sum_congr rfl fun j hj => ?_)
  obtain ⟨hr, hc⟩ := landing_row ei n k j hj
  rw [gather_rows, msg_apply, hr]
  show ((∑ k' : Fin 256, x (ix2 (rowOf (nrmW (srcW (F := Ideal) ei (ix1 (j 0))))) k') * w (ix2 k' (j 1)))
      * shapeCast _ (dis (F := Ideal) ei) Cert.KernelIdeal.Facts₀.shapeCasts_S50000_S50000x1 (ix2 (rowOf (nrmW (srcW (F := Ideal) ei (ix1 (j 0))))) (0 : Fin 1)))
      * dis (F := Ideal) ei (ix1 n) = _
  rw [Cert.LibLayout.shapeCast_a_a1_apply, mul_assoc]

/-- THE BRIDGE: the kernel's result and the reference's are one function of the six argument arrays. -/
theorem result_eq_out (x ei w b1 wf bf) :
    Cert.KernelIdeal.WholeValue.result x ei w b1 wf bf = out (F := Ideal) x ei w b1 wf bf := by
  funext i
  obtain ⟨n, o, rfl⟩ : ∃ (n : Fin 50000) (o : Fin 2), i = ix2 n o := ⟨i 0, i 1, eq_ix2 i⟩
  refine Eq.trans ?_ (out_apply x ei w b1 wf bf n o).symm
  show (∑ k : Fin 300, max (Cert.KernelIdeal.WholeValue.gathered ei
          (Cert.KernelIdeal.RegionValue.hidden x w (shapeCast _ (dis (F := Ideal) ei) Cert.KernelIdeal.Facts₀.shapeCasts_S50000_S50000x1)) (ix2 n k)
        * shapeCast _ (dis (F := Ideal) ei) Cert.KernelIdeal.Facts₀.shapeCasts_S50000_S50000x1 (ix2 n (0 : Fin 1))
        + shapeCast _ b1 Cert.KernelIdeal.Facts₀.shapeCasts_S300_S1x300 (ix2 (0 : Fin 1) k)) (Ideal.ofBits .f32 0x00000000#32) * wf (ix2 k o))
      + shapeCast _ bf Cert.KernelIdeal.Facts₀.shapeCasts_S2_S1x2 (ix2 (0 : Fin 1) o) = _
  rw [shapeCast_b_1b_apply]
  refine congrArg (· + bf (ix1 o)) (Finset.sum_congr rfl fun k _ => ?_)
  rw [shapeCast_b_1b_apply, Cert.LibLayout.shapeCast_a_a1_apply, agg_scaled]

end Cert.Bridge

end
-- ==== Proof.lean ====
/-
  The certificate of a graph-convolution layer followed by a dense layer, written as two matrix-unit launches with the
  neighbour aggregation between them on the host, against its plain reference.

  The mathematics. With self loops appended to the edge list, let deg[n] count the destination words that land on
  node n and dis = deg^(-1/2) (0 where deg = 0). The reference adds, into node n, the rows (x·W1)[src e] · (dis[src e] ·
  dis[dst e]) over the edges e whose dst word lands on n, then applies max(· + b1, 0) · Wf + bf. The kernel computes
  (x·W1)·dis row by row in its first launch, adds the gathered rows on the host, and in its second launch multiplies
  the sums by dis again before the same bias, maximum and dense layer. On the extended reals a change of float format
  is the identity and a matrix-unit product into a zero accumulator is the host's dot product; an edge lands on n exactly
  when its dst word read signed is n, so dis[dst e] = dis[n] on the landing set; and dis[n] is a non-negative real
  for every degree, so it leaves the sum whatever the summands are. Hence the two results are one function of the
  arguments, on all inputs.

  The frames of the two kernels are the generated ones; the reference's run is read back from its straight line of
  host operations; the ideal pass rewrote nothing, so the preservation claim is trivial.
-/
import proofs.«105829_j2448131359246_2_alg».proof.Defs
import proofs.«105829_j2448131359246_2_alg».proof.Proof.Gen.Kernel
import proofs.«105829_j2448131359246_2_alg».proof.Proof.Gen.Kernel.Skeleton
import proofs.«105829_j2448131359246_2_alg».proof.Proof.Gen.Kernel.Launch
import proofs.«105829_j2448131359246_2_alg».proof.Proof.Gen.Kernel.Points
import proofs.«105829_j2448131359246_2_alg».proof.Proof.Gen.Kernel.Frame
import proofs.«105829_j2448131359246_2_alg».proof.Proof.Gen.KernelIdeal
import proofs.«105829_j2448131359246_2_alg».proof.Proof.Gen.KernelIdeal.Skeleton
import proofs.«105829_j2448131359246_2_alg».proof.Proof.Gen.KernelIdeal.Launch
import proofs.«105829_j2448131359246_2_alg».proof.Proof.Gen.KernelIdeal.Points
import proofs.«105829_j2448131359246_2_alg».proof.Proof.Gen.KernelIdeal.Frame
import proofs.«105829_j2448131359246_2_alg».proof.Proof.Gen.ReferenceIdeal
import proofs.«105829_j2448131359246_2_alg».proof.Proof.Gen.Pre_finite_inputs
import proofs.«105829_j2448131359246_2_alg».proof.Proof.KRun
import proofs.«105829_j2448131359246_2_alg».proof.Proof.KWhole
import proofs.«105829_j2448131359246_2_alg».proof.Proof.RefRun
import proofs.«105829_j2448131359246_2_alg».proof.Proof.Bridge
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.RefValue.run (F := Ideal) m ρ)

/-- From memories agreeing on the arguments both idealized programs end with the same result array: the kernel's
    closed form and the reference's are one function. -/
theorem algebraic : Cert.algebraic_KernelIdeal_ReferenceIdeal := by
  intro m ρ m' ρ' _ hagree
  refine ⟨fun c => Cert.KernelIdeal.WholeValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.WholeValue.result_eq m ρ c), (h c).2⟩)
      (Cert.KernelIdeal.RunValue.run_named m ρ)
  · refine (θ_run Cert.ReferenceIdeal.defs _ _).mono (fun r h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1, (hagree c).2.2.2.2.2]
    exact (Cert.Bridge.result_eq_out _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
